-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128 .f32) (main_arg13 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 134
  | .vmem => 36
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S_, .f32⟩
  | 32 => ⟨S800000, .f32⟩
  | 33 => ⟨S_, .f32⟩
  | 34 => ⟨S50000, .f32⟩
  | 35 => ⟨S800000x1, .i32⟩
  | 36 => ⟨S50000, .f32⟩
  | 37 => ⟨S_, .f32⟩
  | 38 => ⟨S50000, .f32⟩
  | 39 => ⟨S50000, .f32⟩
  | 40 => ⟨S50000x1, .f32⟩
  | 41 => ⟨S50000x128, .f32⟩
  | 42 => ⟨S50000x128, .f32⟩
  | 43 => ⟨S128x128, .f32⟩
  | 44 => ⟨S128x128, .f32⟩
  | 45 => ⟨S1x128, .f32⟩
  | 46 => ⟨S50000x128, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S_, .f32⟩
  | 61 => ⟨S800000, .f32⟩
  | 62 => ⟨S_, .f32⟩
  | 63 => ⟨S50000, .f32⟩
  | 64 => ⟨S800000x1, .i32⟩
  | 65 => ⟨S50000, .f32⟩
  | 66 => ⟨S_, .f32⟩
  | 67 => ⟨S50000, .f32⟩
  | 68 => ⟨S50000, .f32⟩
  | 69 => ⟨S50000x1, .f32⟩
  | 70 => ⟨S50000x128, .f32⟩
  | 71 => ⟨S50000x128, .f32⟩
  | 72 => ⟨S128x128, .f32⟩
  | 73 => ⟨S128x128, .f32⟩
  | 74 => ⟨S1x128, .f32⟩
  | 75 => ⟨S50000x128, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S_, .f32⟩
  | 90 => ⟨S800000, .f32⟩
  | 91 => ⟨S_, .f32⟩
  | 92 => ⟨S50000, .f32⟩
  | 93 => ⟨S800000x1, .i32⟩
  | 94 => ⟨S50000, .f32⟩
  | 95 => ⟨S_, .f32⟩
  | 96 => ⟨S50000, .f32⟩
  | 97 => ⟨S50000, .f32⟩
  | 98 => ⟨S50000x1, .f32⟩
  | 99 => ⟨S50000x128, .f32⟩
  | 100 => ⟨S50000x128, .f32⟩
  | 101 => ⟨S128x128, .f32⟩
  | 102 => ⟨S128x128, .f32⟩
  | 103 => ⟨S1x128, .f32⟩
  | 104 => ⟨S50000x128, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S_, .f32⟩
  | 115 => ⟨S50000x128, .f32⟩
  | 116 => ⟨S800000x1, .i32⟩
  | 117 => ⟨S50000x128, .f32⟩
  | 118 => ⟨S_, .f32⟩
  | 119 => ⟨S800000, .f32⟩
  | 120 => ⟨S_, .f32⟩
  | 121 => ⟨S50000, .f32⟩
  | 122 => ⟨S800000x1, .i32⟩
  | 123 => ⟨S50000, .f32⟩
  | 124 => ⟨S_, .f32⟩
  | 125 => ⟨S50000, .f32⟩
  | 126 => ⟨S50000, .f32⟩
  | 127 => ⟨S50000x1, .f32⟩
  | _ => ⟨S50000x128, .f32⟩

abbrev hbmTy0_1 (i : Nat) : BufTy := match i % 128 with
  | 0 => ⟨S50000x128, .f32⟩
  | 1 => ⟨S50000x128, .f32⟩
  | 2 => ⟨S128x128, .f32⟩
  | 3 => ⟨S128x128, .f32⟩
  | 4 => ⟨S1x128, .f32⟩
  | 5 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S5000x128, .f32⟩
  | .local _ .vmem, ⟨35, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_15 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_18 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_19 : Ref sig .tc := ⟨.hbm, 118, rfl⟩
abbrev main_v83 : Ref sig .tc := ⟨.hbm, 119, rfl⟩
abbrev main_cst_20 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_21 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v69) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v91) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v92) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v94) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v93) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v95) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 165
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S_, .f32⟩
  | 32 => ⟨S800000, .f32⟩
  | 33 => ⟨S_, .f32⟩
  | 34 => ⟨S50000, .f32⟩
  | 35 => ⟨S800000x1, .i32⟩
  | 36 => ⟨S50000, .f32⟩
  | 37 => ⟨S_, .f32⟩
  | 38 => ⟨S50000, .f32⟩
  | 39 => ⟨S50000, .f32⟩
  | 40 => ⟨S50000x1, .f32⟩
  | 41 => ⟨S50000x128, .f32⟩
  | 42 => ⟨S50000x128, .f32⟩
  | 43 => ⟨S128x128, .f32⟩
  | 44 => ⟨S50000x128, .f32⟩
  | 45 => ⟨S1x128, .f32⟩
  | 46 => ⟨S50000x128, .f32⟩
  | 47 => ⟨S50000x128, .f32⟩
  | 48 => ⟨S128x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S1x800000, .i32⟩
  | 55 => ⟨S800000, .i32⟩
  | 56 => ⟨S1x800000, .i32⟩
  | 57 => ⟨S800000, .i32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S_, .f32⟩
  | 72 => ⟨S800000, .f32⟩
  | 73 => ⟨S_, .f32⟩
  | 74 => ⟨S50000, .f32⟩
  | 75 => ⟨S800000x1, .i32⟩
  | 76 => ⟨S50000, .f32⟩
  | 77 => ⟨S_, .f32⟩
  | 78 => ⟨S50000, .f32⟩
  | 79 => ⟨S50000, .f32⟩
  | 80 => ⟨S50000x1, .f32⟩
  | 81 => ⟨S50000x128, .f32⟩
  | 82 => ⟨S50000x128, .f32⟩
  | 83 => ⟨S128x128, .f32⟩
  | 84 => ⟨S50000x128, .f32⟩
  | 85 => ⟨S1x128, .f32⟩
  | 86 => ⟨S50000x128, .f32⟩
  | 87 => ⟨S50000x128, .f32⟩
  | 88 => ⟨S128x128, .f32⟩
  | 89 => ⟨S50000x128, .f32⟩
  | 90 => ⟨S50000x128, .f32⟩
  | 91 => ⟨S1x800000, .i32⟩
  | 92 => ⟨S800000, .i32⟩
  | 93 => ⟨S1x800000, .i32⟩
  | 94 => ⟨S800000, .i32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S_, .f32⟩
  | 109 => ⟨S800000, .f32⟩
  | 110 => ⟨S_, .f32⟩
  | 111 => ⟨S50000, .f32⟩
  | 112 => ⟨S800000x1, .i32⟩
  | 113 => ⟨S50000, .f32⟩
  | 114 => ⟨S_, .f32⟩
  | 115 => ⟨S50000, .f32⟩
  | 116 => ⟨S50000, .f32⟩
  | 117 => ⟨S50000x1, .f32⟩
  | 118 => ⟨S50000x128, .f32⟩
  | 119 => ⟨S50000x128, .f32⟩
  | 120 => ⟨S128x128, .f32⟩
  | 121 => ⟨S50000x128, .f32⟩
  | 122 => ⟨S1x128, .f32⟩
  | 123 => ⟨S50000x128, .f32⟩
  | 124 => ⟨S50000x128, .f32⟩
  | 125 => ⟨S128x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x800000, .i32⟩
  | 1 => ⟨S800000, .i32⟩
  | 2 => ⟨S1x800000, .i32⟩
  | 3 => ⟨S800000, .i32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x128, .f32⟩
  | 13 => ⟨S_, .f32⟩
  | 14 => ⟨S50000x128, .f32⟩
  | 15 => ⟨S800000x1, .i32⟩
  | 16 => ⟨S50000x128, .f32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000x1, .f32⟩
  | 27 => ⟨S50000x128, .f32⟩
  | 28 => ⟨S50000x128, .f32⟩
  | 29 => ⟨S128x128, .f32⟩
  | 30 => ⟨S50000x128, .f32⟩
  | 31 => ⟨S1x128, .f32⟩
  | 32 => ⟨S50000x128, .f32⟩
  | 33 => ⟨S50000x128, .f32⟩
  | 34 => ⟨S128x128, .f32⟩
  | 35 => ⟨S50000x128, .f32⟩
  | 36 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call0_cst : Ref sig .tc := ⟨.hbm, 51, rfl⟩
abbrev main_call0_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_4 : Ref sig .tc := ⟨.hbm, 58, rfl⟩
abbrev main_v36 : Ref sig .tc := ⟨.hbm, 59, rfl⟩
abbrev main_v37 : Ref sig .tc := ⟨.hbm, 60, rfl⟩
abbrev main_c_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_10 : Ref sig .tc := ⟨.hbm, 95, rfl⟩
abbrev main_v67 : Ref sig .tc := ⟨.hbm, 96, rfl⟩
abbrev main_v68 : Ref sig .tc := ⟨.hbm, 97, rfl⟩
abbrev main_c_11 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_12 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_13 : Ref sig .tc := ⟨.hbm, 108, rfl⟩
abbrev main_v77 : Ref sig .tc := ⟨.hbm, 109, rfl⟩
abbrev main_cst_14 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_15 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_16 : Ref sig .tc := ⟨.hbm, 132, rfl⟩
abbrev main_v98 : Ref sig .tc := ⟨.hbm, 133, rfl⟩
abbrev main_v99 : Ref sig .tc := ⟨.hbm, 134, rfl⟩
abbrev main_c_17 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_18 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_19 : Ref sig .tc := ⟨.hbm, 145, rfl⟩
abbrev main_v108 : Ref sig .tc := ⟨.hbm, 146, rfl⟩
abbrev main_cst_20 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_21 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with every buffer's final contents named.

  @main is eight segments: a stretch of host operations, then a region, four times. The contents of the TensorCore's
  buffers at each segment boundary are a fold from the launch memory: a stretch applies its operations, a region
  replaces its arrays by what its write-backs leave. Every weakly fair execution terminates, nothing faulting, in a
  state where every unscoped buffer holds the last boundary's contents: the launch over the segments, the last thread
  state read against the final memory.
-/
import proofs.«100420_j87522843558077_1_alg».proof.Proof.Gen.KernelIdeal.Frame

set_option maxRecDepth 16384

noncomputable section

namespace Cert.KernelIdeal.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the contents the fold through the eight segments ends with. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run, read at one TensorCore buffer that no scope owns. -/
theorem mem_eq_W8 {r : PUnit × MemSt nD τ sig (Elt F)}
    (h : ∀ c : Dev nD, ∀ b ∈ Pipeline.ucRefs τ sig, r.2.mem (((c : Thread nD τ)).1, b) = W8 m ρ c b)
    (c : Dev nD) (b : Ref sig .tc) (hb : ¬ (Proc.devRef .tc b : DevRef τ sig).isScoped) :
    r.2.mem (((c : Thread nD τ)).1, Proc.devRef .tc b) = W8 m ρ c (Proc.devRef .tc b) :=
  h c _ (mem_uc b hb)

end Cert.KernelIdeal.SageRun

end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibMatProd.lean ====
/-
  A plain matrix product, and the two operations that compute it.

  `prod l r` is rows times columns: entry `(i, j)` is the sum over `k : Fin K` of `l (i, k) * r (k, j)` on the
  extended reals. Both a kernel's `tpu.matmul` into a ZERO accumulator and the host's `dot_general`, over a
  contraction record for `[M, K] × [K, N] → [M, N]` with one contracted axis, are that function at the ideal
  values (the accumulator adds zero; the host's product has none). The record enters through the same six
  facts as `Cert.Lib.PlainDot.sum_rows_cols`, each by computation at a literal record. The operands' float
  formats are free: at the ideal values a change of format is the identity, so a product fed rounded operands
  is the product of the operands.

  Reading a product of a BLOCK of rows: entry `(p, q)` of `prod` of rows `T·B … T·B + B − 1` of `l` with the
  right operand is entry `(T·B + p, q)` of `prod l r` (`prod_rows`), which is what makes a product computed
  block of rows by block of rows the whole product.
-/
import Idealize.ShloMosaic.PureOps.Ideal.Laws
import Idealize.ShloMosaic.Lib.ValueIdx
import proofs.«100420_j87522843558077_1_alg».proof.Proof.LibPlainDot

noncomputable section

namespace Cert.Lib.MatProd

open Idealize.ShloMosaic Idealize.ShloMosaic.ValueIdx

/-- Rows times columns, on the extended reals. -/
def prod {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem prod_apply {M K N : ℕ} (l : (⟨2, ![M, K]⟩ : Shape).Idx → EReal) (r : (⟨2, ![K, N]⟩ : Shape).Idx → EReal)
    (i : Fin M) (j : Fin N) : prod l r (ix2 i j) = ∑ k : Fin K, l (ix2 i k) * r (ix2 k j) := rfl

/-- The host's `dot_general` over a one-axis contraction record is `prod`. -/
theorem dotGeneral_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    Host.dotGeneral D prec l r = prod l r :=
  funext fun j => (Ideal.dotGeneral_apply D prec .single l r j).trans
    (Cert.Lib.PlainDot.sum_rows_cols D hr hs hl0 hl1 hr0 hr1 l r j)

/-- A kernel's `tpu.matmul` into the zero accumulator, over a one-axis contraction record, is `prod`. -/
theorem matmul_zero_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r :=
  funext fun j => (Ideal.matmul_constant_zero_apply D prec l r j).trans
    (Cert.Lib.PlainDot.sum_rows_cols D hr hs hl0 hl1 hr0 hr1 l r j)

/-- The product of a block of `B` rows of `l`, starting at row `T * B`, read at `(p, q)`, is the whole product at
    `(T * B + p, q)`: `lb` holds those rows (`hl`) and `rb` holds column `q` of the right operand (`hr`). -/
theorem prod_rows {M K N B : ℕ} (l : (⟨2, ![M, K]⟩ : Shape).Idx → EReal) (r : (⟨2, ![K, N]⟩ : Shape).Idx → EReal)
    (lb : (⟨2, ![B, K]⟩ : Shape).Idx → EReal) (rb : (⟨2, ![K, N]⟩ : Shape).Idx → EReal)
    (T : ℕ) (p : Fin B) (q : Fin N) (h : T * B + p.val < M)
    (hl : ∀ k : Fin K, lb (ix2 p k) = l (ix2 ⟨T * B + p.val, h⟩ k))
    (hr : ∀ k : Fin K, rb (ix2 k q) = r (ix2 k q)) :
    prod lb rb (ix2 p q) = prod l r (ix2 ⟨T * B + p.val, h⟩ q) :=
  Finset.sum_congr rfl fun k _ => by
    show lb (ix2 p k) * rb (ix2 k q) = l (ix2 ⟨T * B + p.val, h⟩ k) * r (ix2 k q)
    rw [hl k, hr k]

end Cert.Lib.MatProd

end
-- ==== Proof.Spec.lean ====
/-
  What both programs compute, as one function of the fourteen argument arrays.

  A layer takes the node features `h : [50000, 128]`, averages over every edge `(s, d)` the row `h[s]` into row `d`
  (`meanFrom`: gather the source rows, add them up per destination, divide by the number of edges ending there, at
  least one), and returns `mean · Wlᵀ + bl + h · Wrᵀ`, entry by entry
  `(Σ_k mean(r,k) · Wlᵀ(k,c) + bl(c)) + Σ_k h(r,k) · Wrᵀ(k,c)` (`dense`). Four layers are stacked, the first followed
  by `max · 0`.

  The averaging and the transposition of a weight matrix are host operations that BOTH programs apply, operation for
  operation, to values that are proved equal; they are carried here as the operations themselves and are never
  opened. The edge list's two rows are `srcOf` and `dstOf`.
-/
import proofs.«100420_j87522843558077_1_alg».proof.ReferenceIdeal
import proofs.«100420_j87522843558077_1_alg».proof.Proof.Gen.ReferenceIdeal
import proofs.«100420_j87522843558077_1_alg».proof.Proof.LibMatProd
import Idealize.ShloMosaic.PureOps.Ideal
import Idealize.ShloMosaic.Lib.ValueIdx

noncomputable section

namespace Cert.Sage

open Idealize.ShloMosaic Idealize.ShloMosaic.ValueIdx Cert.Lib.MatProd
open Cert.ReferenceIdeal Cert.ReferenceIdeal.Gen

/-- A matrix of extended reals. -/
abbrev Mat (a b : ℕ) : Type := (⟨2, ![a, b]⟩ : Shape).Idx → EReal
/-- A vector of extended reals. -/
abbrev Vec1 (n : ℕ) : Type := (⟨1, ![n]⟩ : Shape).Idx → EReal

/-- One dense layer on `M` rows: `(A · WlT + b) + X · WrT`, the bias `b` added to every row. -/
def dense {M : ℕ} (A X : Mat M 128) (WlT WrT : Mat 128 128) (b : Vec1 128) : Mat M 128 :=
  fun j => (prod A WlT j + b (ix1 (j 1))) + prod X WrT j

theorem dense_apply {M : ℕ} (A X : Mat M 128) (WlT WrT : Mat 128 128) (b : Vec1 128) (p : Fin M) (q : Fin 128) :
    dense A X WlT WrT b (ix2 p q) = (prod A WlT (ix2 p q) + b (ix1 q)) + prod X WrT (ix2 p q) := rfl

/-- The rectifier, entry by entry. -/
def relu {M : ℕ} (Z : Mat M 128) : Mat M 128 := fun j => max (Z j) (Ideal.ofBits .f32 0x00000000#32)

theorem relu_apply {M : ℕ} (Z : Mat M 128) (j : (⟨2, ![M, 128]⟩ : Shape).Idx) :
    relu Z j = max (Z j) (Ideal.ofBits .f32 0x00000000#32) := rfl

/-- The edges' source nodes: row 0 of the edge list. -/
def srcOf (e : IVec S2x800000 32) : IVec S800000 32 :=
  shapeCast _ (extractStridedSlice S1x800000 ![0, 0] e slices_S2x800000_S1x800000_0_0) shapeCasts_S1x800000_S800000

/-- The edges' destination nodes: row 1 of the edge list. -/
def dstOf (e : IVec S2x800000 32) : IVec S800000 32 :=
  shapeCast _ (extractStridedSlice S1x800000 ![1, 0] e slices_S2x800000_S1x800000_1_0) shapeCasts_S1x800000_S800000

/-- The mean over incoming edges: rows of `h` gathered at the sources (a negative source counted from the end),
    added up per destination, divided by the number of edges ending at the destination or by one. -/
def meanFrom (h : FVec Ideal S50000x128 .f32) (s d : IVec S800000 32) :
    FVec Ideal S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 d)
      (Host.gather gather_S50000x128_S800000x1_S800000x128_1_0_n_n_0_1_1128 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 d)
            (broadcastInDim S800000 ![] bcast_S_S800000 (constant S_ .f32 0x3F800000#32)))
          (broadcastInDim S50000 ![] bcast_S_S50000 (constant S_ .f32 0x3F800000#32)))))

/-- A weight matrix transposed. -/
def tr (W : FVec Ideal S128x128 .f32) : FVec Ideal S128x128 .f32 :=
  transpose S128x128 [1, 0] W transposes_S128x128_S128x128_1_0

/-- One layer: the mean over incoming edges through `Wl`, plus the bias, plus the node's own row through `Wr`. -/
def layer (h : Mat 50000 128) (s d : IVec S800000 32)
    (Wl : Mat 128 128) (bl : Vec1 128) (Wr : Mat 128 128) : Mat 50000 128 :=
  dense (meanFrom h s d) h (tr Wl) (tr Wr) bl

/-- The four stacked layers, the rectifier after the first. -/
def G (x : Mat 50000 128) (e : IVec S2x800000 32)
    (Wl0 : Mat 128 128) (bl0 : Vec1 128) (Wr0 : Mat 128 128) (Wl1 : Mat 128 128) (bl1 : Vec1 128) (Wr1 : Mat 128 128)
    (Wl2 : Mat 128 128) (bl2 : Vec1 128) (Wr2 : Mat 128 128) (Wl3 : Mat 128 128) (bl3 : Vec1 128) (Wr3 : Mat 128 128) :
    Mat 50000 128 :=
  layer (layer (layer (relu (layer x (srcOf e) (dstOf e) Wl0 bl0 Wr0)) (srcOf e) (dstOf e) Wl1 bl1 Wr1)
    (srcOf e) (dstOf e) Wl2 bl2 Wr2) (srcOf e) (dstOf e) Wl3 bl3 Wr3

end Cert.Sage

end
-- ==== Proof.Stretch.lean ====
/-
  What a stretch of host operations leaves, read at the buffers a region or a later stretch uses.

  Each stretch before a region averages the current node features over the incoming edges (the shared operations
  `Cert.Sage.meanFrom`, applied to the features and to the two rows of the edge list, which the first stretch cuts
  out once), transposes the layer's two weight matrices and lays the bias vector out as one row; every other buffer
  keeps its contents. The statements hold from ANY contents `Wp` of the buffers before the stretch.

  The two programs name their gather and scatter dimension records separately; the records are the same.
-/
import proofs.«100420_j87522843558077_1_alg».proof.Proof.Gen.KernelIdeal.Launch
import proofs.«100420_j87522843558077_1_alg».proof.Proof.Spec
import Idealize.ShloMosaic.Lib.StableHlo.Run
import Idealize.ShloMosaic.Lib.ValueLayout

set_option maxRecDepth 16384

noncomputable section

namespace Cert.KernelIdeal.SageStretch

open Cert.KernelIdeal Cert.KernelIdeal.Gen
open Idealize.ShloMosaic Idealize.ShloMosaic.TcCoe Idealize.ShloMosaic.StableHlo Idealize.ShloMosaic.ValueIdx Idealize.SL.Sem

theorem gather_eq : Cert.KernelIdeal.gather_S50000x128_S800000x1_S800000x128_1_0_n_n_0_1_1128
    = Cert.ReferenceIdeal.gather_S50000x128_S800000x1_S800000x128_1_0_n_n_0_1_1128 := rfl
theorem scatter2_eq : Cert.KernelIdeal.scatter_S50000x128_S800000x1_S800000x128_1_0_0_1
    = Cert.ReferenceIdeal.scatter_S50000x128_S800000x1_S800000x128_1_0_0_1 := rfl
theorem scatter1_eq : Cert.KernelIdeal.scatter_S50000_S800000x1_S800000_n_0_0_1
    = Cert.ReferenceIdeal.scatter_S50000_S800000x1_S800000_n_0_0_1 := rfl

/-- A bias vector laid out as the one row of a `[1, 128]` array. -/
def rowOf (b : FVec Ideal S128 .f32) : FVec Ideal S1x128 .f32 := shapeCast S1x128 b shapeCasts_S128_S1x128

/-- The row read back along its one row is the vector. -/
theorem rowOf_read (b : FVec Ideal S128 .f32) :
    (fun j : (⟨1, ![128]⟩ : Shape).Idx => rowOf b (ix2 (0 : Fin 1) (j 0))) = b := by
  funext j
  exact (shapeCast_a_1a_apply (a := 128) b shapeCasts_S128_S1x128 (0 : Fin 1) (j 0)).trans (congrArg b (eq_ix1 j).symm)

variable (Wp : Valuation τ sig (Elt Ideal))

/-! ## The stretch before region 0 -/

set_option maxHeartbeats 4000000 in
/-- The sources: row 0 of the edge list. -/
theorem s0_src : after (hostOps0 (F := Ideal)) Wp (Proc.devRef .tc main_v1) = Cert.Sage.srcOf (Wp (Proc.devRef .tc main_arg1)) := by
  after_results_simp; rfl

set_option maxHeartbeats 4000000 in
/-- The destinations: row 1 of the edge list. -/
theorem s0_dst : after (hostOps0 (F := Ideal)) Wp (Proc.devRef .tc main_v3) = Cert.Sage.dstOf (Wp (Proc.devRef .tc main_arg1)) := by
  after_results_simp; rfl

set_option maxHeartbeats 4000000 in
/-- The mean over incoming edges of the input features. -/
theorem s0_mean : after (hostOps0 (F := Ideal)) Wp (Proc.devRef .tc main_v22)
    = Cert.Sage.meanFrom (Wp (Proc.devRef .tc main_arg0)) (Cert.Sage.srcOf (Wp (Proc.devRef .tc main_arg1))) (Cert.Sage.dstOf (Wp (Proc.devRef .tc main_arg1))) := by
  after_results_simp
  rw [gather_eq, scatter2_eq, scatter1_eq]
  rfl

set_option maxHeartbeats 4000000 in
theorem s0_feat : after (hostOps0 (F := Ideal)) Wp (Proc.devRef .tc main_arg0) = Wp (Proc.devRef .tc main_arg0) := by
  after_results_simp

set_option maxHeartbeats 4000000 in
theorem s0_wl : after (hostOps0 (F := Ideal)) Wp (Proc.devRef .tc main_v23) = Cert.Sage.tr (Wp (Proc.devRef .tc main_arg2)) := by
  after_results_simp; rfl

set_option maxHeartbeats 4000000 in
theorem s0_wr : after (hostOps0 (F := Ideal)) Wp (Proc.devRef .tc main_v24) = Cert.Sage.tr (Wp (Proc.devRef .tc main_arg4)) := by
  after_results_simp; rfl

set_option maxHeartbeats 4000000 in
theorem s0_b : after (hostOps0 (F := Ideal)) Wp (Proc.devRef .tc main_v25) = rowOf (Wp (Proc.devRef .tc main_arg3)) := by
  after_results_simp; rfl

set_option maxHeartbeats 4000000 in
theorem s0_keep_arg5 : after (hostOps0 (F := Ideal)) Wp (Proc.devRef .tc main_arg5) = Wp (Proc.devRef .tc main_arg5) := by
  after_results_simp

set_option maxHeartbeats 4000000 in
theorem s0_keep_arg6 : after (hostOps0 (F := Ideal)) Wp (Proc.devRef .tc main_arg6) = Wp (Proc.devRef .tc main_arg6) := by
  after_results_simp

set_option maxHeartbeats 4000000 in
theorem s0_keep_arg7 : after (hostOps0 (F := Ideal)) Wp (Proc.devRef .tc main_arg7) = Wp (Proc.devRef .tc main_arg7) := by
  after_results_simp

set_option maxHeartbeats 4000000 in
theorem s0_keep_arg8 : after (hostOps0 (F := Ideal)) Wp (Proc.devRef .tc main_arg8) = Wp (Proc.devRef .tc main_arg8) := by
  after_results_simp

set_option maxHeartbeats 4000000 in
theorem s0_keep_arg9 : after (hostOps0 (F := Ideal)) Wp (Proc.devRef .tc main_arg9) = Wp (Proc.devRef .tc main_arg9) := by
  after_results_simp

set_option maxHeartbeats 4000000 in
theorem s0_keep_arg10 : after (hostOps0 (F := Ideal)) Wp (Proc.devRef .tc main_arg10) = Wp (Proc.devRef .tc main_arg10) := by
  after_results_simp

set_option maxHeartbeats 4000000 in
theorem s0_keep_arg11 : after (hostOps0 (F := Ideal)) Wp (Proc.devRef .tc main_arg11) = Wp (Proc.devRef .tc main_arg11) := by
  after_results_simp

set_option maxHeartbeats 4000000 in
theorem s0_keep_arg12 : after (hostOps0 (F := Ideal)) Wp (Proc.devRef .tc main_arg12) = Wp (Proc.devRef .tc main_arg12) := by
  after_results_simp

set_option maxHeartbeats 4000000 in
theorem s0_keep_arg13 : after (hostOps0 (F := Ideal)) Wp (Proc.devRef .tc main_arg13) = Wp (Proc.devRef .tc main_arg13) := by
  after_results_simp

/-! ## The stretch before region 1 -/

set_option maxHeartbeats 4000000 in
/-- The mean over incoming edges of the previous layer's features. -/
theorem s1_mean : after (hostOps1 (F := Ideal)) Wp (Proc.devRef .tc main_v45)
    = Cert.Sage.meanFrom (Wp (Proc.devRef .tc main_v26)) (Wp (Proc.devRef .tc main_v1)) (Wp (Proc.devRef .tc main_v3)) := by
  after_results_simp
  rw [gather_eq, scatter2_eq, scatter1_eq]
  rfl

set_option maxHeartbeats 4000000 in
theorem s1_feat : after (hostOps1 (F := Ideal)) Wp (Proc.devRef .tc main_v26) = Wp (Proc.devRef .tc main_v26) := by
  after_results_simp

set_option maxHeartbeats 4000000 in
theorem s1_wl : after (hostOps1 (F := Ideal)) Wp (Proc.devRef .tc main_v46) = Cert.Sage.tr (Wp (Proc.devRef .tc main_arg5)) := by
  after_results_simp; rfl

set_option maxHeartbeats 4000000 in
theorem s1_wr : after (hostOps1 (F := Ideal)) Wp (Proc.devRef .tc main_v47) = Cert.Sage.tr (Wp (Proc.devRef .tc main_arg7)) := by
  after_results_simp; rfl

set_option maxHeartbeats 4000000 in
theorem s1_b : after (hostOps1 (F := Ideal)) Wp (Proc.devRef .tc main_v48) = rowOf (Wp (Proc.devRef .tc main_arg6)) := by
  after_results_simp; rfl

set_option maxHeartbeats 4000000 in
theorem s1_keep_v1 : after (hostOps1 (F := Ideal)) Wp (Proc.devRef .tc main_v1) = Wp (Proc.devRef .tc main_v1) := by
  after_results_simp

set_option maxHeartbeats 4000000 in
theorem s1_keep_v3 : after (hostOps1 (F := Ideal)) Wp (Proc.devRef .tc main_v3) = Wp (Proc.devRef .tc main_v3) := by
  after_results_simp

set_option maxHeartbeats 4000000 in
theorem s1_keep_arg8 : after (hostOps1 (F := Ideal)) Wp (Proc.devRef .tc main_arg8) = Wp (Proc.devRef .tc main_arg8) := by
  after_results_simp

set_option maxHeartbeats 4000000 in
theorem s1_keep_arg9 : after (hostOps1 (F := Ideal)) Wp (Proc.devRef .tc main_arg9) = Wp (Proc.devRef .tc main_arg9) := by
  after_results_simp

set_option maxHeartbeats 4000000 in
theorem s1_keep_arg10 : after (hostOps1 (F := Ideal)) Wp (Proc.devRef .tc main_arg10) = Wp (Proc.devRef .tc main_arg10) := by
  after_results_simp

set_option maxHeartbeats 4000000 in
theorem s1_keep_arg11 : after (hostOps1 (F := Ideal)) Wp (Proc.devRef .tc main_arg11) = Wp (Proc.devRef .tc main_arg11) := by
  after_results_simp

set_option maxHeartbeats 4000000 in
theorem s1_keep_arg12 : after (hostOps1 (F := Ideal)) Wp (Proc.devRef .tc main_arg12) = Wp (Proc.devRef .tc main_arg12) := by
  after_results_simp

set_option maxHeartbeats 4000000 in
theorem s1_keep_arg13 : after (hostOps1 (F := Ideal)) Wp (Proc.devRef .tc main_arg13) = Wp (Proc.devRef .tc main_arg13) := by
  after_results_simp

/-! ## The stretch before region 2 -/

set_option maxHeartbeats 4000000 in
/-- The mean over incoming edges of the previous layer's features. -/
theorem s2_mean : after (hostOps2 (F := Ideal)) Wp (Proc.devRef .tc main_v68)
    = Cert.Sage.meanFrom (Wp (Proc.devRef .tc main_v49)) (Wp (Proc.devRef .tc main_v1)) (Wp (Proc.devRef .tc main_v3)) := by
  after_results_simp
  rw [gather_eq, scatter2_eq, scatter1_eq]
  rfl

set_option maxHeartbeats 4000000 in
theorem s2_feat : after (hostOps2 (F := Ideal)) Wp (Proc.devRef .tc main_v49) = Wp (Proc.devRef .tc main_v49) := by
  after_results_simp

set_option maxHeartbeats 4000000 in
theorem s2_wl : after (hostOps2 (F := Ideal)) Wp (Proc.devRef .tc main_v69) = Cert.Sage.tr (Wp (Proc.devRef .tc main_arg8)) := by
  after_results_simp; rfl

set_option maxHeartbeats 4000000 in
theorem s2_wr : after (hostOps2 (F := Ideal)) Wp (Proc.devRef .tc main_v70) = Cert.Sage.tr (Wp (Proc.devRef .tc main_arg10)) := by
  after_results_simp; rfl

set_option maxHeartbeats 4000000 in
theorem s2_b : after (hostOps2 (F := Ideal)) Wp (Proc.devRef .tc main_v71) = rowOf (Wp (Proc.devRef .tc main_arg9)) := by
  after_results_simp; rfl

set_option maxHeartbeats 4000000 in
theorem s2_keep_v1 : after (hostOps2 (F := Ideal)) Wp (Proc.devRef .tc main_v1) = Wp (Proc.devRef .tc main_v1) := by
  after_results_simp

set_option maxHeartbeats 4000000 in
theorem s2_keep_v3 : after (hostOps2 (F := Ideal)) Wp (Proc.devRef .tc main_v3) = Wp (Proc.devRef .tc main_v3) := by
  after_results_simp

set_option maxHeartbeats 4000000 in
theorem s2_keep_arg11 : after (hostOps2 (F := Ideal)) Wp (Proc.devRef .tc main_arg11) = Wp (Proc.devRef .tc main_arg11) := by
  after_results_simp

set_option maxHeartbeats 4000000 in
theorem s2_keep_arg12 : after (hostOps2 (F := Ideal)) Wp (Proc.devRef .tc main_arg12) = Wp (Proc.devRef .tc main_arg12) := by
  after_results_simp

set_option maxHeartbeats 4000000 in
theorem s2_keep_arg13 : after (hostOps2 (F := Ideal)) Wp (Proc.devRef .tc main_arg13) = Wp (Proc.devRef .tc main_arg13) := by
  after_results_simp

/-! ## The stretch before region 3 -/

set_option maxHeartbeats 4000000 in
/-- The mean over incoming edges of the previous layer's features. -/
theorem s3_mean : after (hostOps3 (F := Ideal)) Wp (Proc.devRef .tc main_v91)
    = Cert.Sage.meanFrom (Wp (Proc.devRef .tc main_v72)) (Wp (Proc.devRef .tc main_v1)) (Wp (Proc.devRef .tc main_v3)) := by
  after_results_simp
  rw [gather_eq, scatter2_eq, scatter1_eq]
  rfl

set_option maxHeartbeats 4000000 in
theorem s3_feat : after (hostOps3 (F := Ideal)) Wp (Proc.devRef .tc main_v72) = Wp (Proc.devRef .tc main_v72) := by
  after_results_simp

set_option maxHeartbeats 4000000 in
theorem s3_wl : after (hostOps3 (F := Ideal)) Wp (Proc.devRef .tc main_v92) = Cert.Sage.tr (Wp (Proc.devRef .tc main_arg11)) := by
  after_results_simp; rfl

set_option maxHeartbeats 4000000 in
theorem s3_wr : after (hostOps3 (F := Ideal)) Wp (Proc.devRef .tc main_v93) = Cert.Sage.tr (Wp (Proc.devRef .tc main_arg13)) := by
  after_results_simp; rfl

set_option maxHeartbeats 4000000 in
theorem s3_b : after (hostOps3 (F := Ideal)) Wp (Proc.devRef .tc main_v94) = rowOf (Wp (Proc.devRef .tc main_arg12)) := by
  after_results_simp; rfl

end Cert.KernelIdeal.SageStretch

end
-- ==== Proof.Fold.lean ====
/-
  The idealized kernel's result array, through the eight segments of @main.

  The buffers' contents at each segment boundary are a fold from the launch memory. Walking it: the first stretch
  leaves the two rows of the edge list, the mean of the input features over the incoming edges, and layer 0's
  transposed weights and bias row; region 0 leaves, in its output array, the first layer's features `h1` (its ten
  blocks of rows together are one whole-array function of the arrays it reads); the next stretch averages `h1`, and
  so on. No stretch and no region writes the edge rows or a later layer's weights, so each is read where it was first
  written. After region 3 the result array holds the four stacked layers of the argument arrays.

  The four region lemmas (each region's output array as one dense layer of the arrays it finds) enter as hypotheses.
-/
import proofs.«100420_j87522843558077_1_alg».proof.Proof.Gen.KernelIdeal.Frame
import proofs.«100420_j87522843558077_1_alg».proof.Proof.Stretch
import proofs.«100420_j87522843558077_1_alg».proof.Proof.Spec

set_option maxRecDepth 16384

noncomputable section

namespace Cert.KernelIdeal.SageFold

open Cert.KernelIdeal Cert.KernelIdeal.Gen Cert.Sage Cert.KernelIdeal.SageStretch
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-! ## The four layers' features, as functions of the launch memory -/

/-- After the first layer and the rectifier. -/
def h1 : Mat 50000 128 := relu (layer (m ((c : Thread nD τ).loc main_arg0)) (srcOf (m ((c : Thread nD τ).loc main_arg1))) (dstOf (m ((c : Thread nD τ).loc main_arg1))) (m ((c : Thread nD τ).loc main_arg2)) (m ((c : Thread nD τ).loc main_arg3)) (m ((c : Thread nD τ).loc main_arg4)))
/-- After the second layer. -/
def h2 : Mat 50000 128 := layer (h1 m c) (srcOf (m ((c : Thread nD τ).loc main_arg1))) (dstOf (m ((c : Thread nD τ).loc main_arg1))) (m ((c : Thread nD τ).loc main_arg5)) (m ((c : Thread nD τ).loc main_arg6)) (m ((c : Thread nD τ).loc main_arg7))
/-- After the third layer. -/
def h3 : Mat 50000 128 := layer (h2 m c) (srcOf (m ((c : Thread nD τ).loc main_arg1))) (dstOf (m ((c : Thread nD τ).loc main_arg1))) (m ((c : Thread nD τ).loc main_arg8)) (m ((c : Thread nD τ).loc main_arg9)) (m ((c : Thread nD τ).loc main_arg10))
/-- After the fourth layer. -/
def h4 : Mat 50000 128 := layer (h3 m c) (srcOf (m ((c : Thread nD τ).loc main_arg1))) (dstOf (m ((c : Thread nD τ).loc main_arg1))) (m ((c : Thread nD τ).loc main_arg11)) (m ((c : Thread nD τ).loc main_arg12)) (m ((c : Thread nD τ).loc main_arg13))

/-- The four layers are the specification. -/
theorem h4_eq : h4 m c = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := rfl

/-! ## The four regions' output arrays, each one dense layer of the arrays the region finds -/

variable
  (hR0 : ∀ (V : (c : Dev nD) → (b : Ref sig .tc) → Buf (Elt Ideal) ((c : Thread nD τ).loc b)) (c : Dev nD),
    (Gen.dat0 (F := Ideal) V c).arrAt 5 cfg0.N
      = relu (dense (V c main_v22) (V c main_arg0) (V c main_v23) (V c main_v24) (fun j => V c main_v25 (ix2 0 (j 0)))))
  (hR1 : ∀ (V : (c : Dev nD) → (b : Ref sig .tc) → Buf (Elt Ideal) ((c : Thread nD τ).loc b)) (c : Dev nD),
    (Gen.dat1 (F := Ideal) V c).arrAt 5 cfg1.N
      = dense (V c main_v45) (V c main_v26) (V c main_v46) (V c main_v47) (fun j => V c main_v48 (ix2 0 (j 0))))
  (hR2 : ∀ (V : (c : Dev nD) → (b : Ref sig .tc) → Buf (Elt Ideal) ((c : Thread nD τ).loc b)) (c : Dev nD),
    (Gen.dat2 (F := Ideal) V c).arrAt 5 cfg2.N
      = dense (V c main_v68) (V c main_v49) (V c main_v69) (V c main_v70) (fun j => V c main_v71 (ix2 0 (j 0))))
  (hR3 : ∀ (V : (c : Dev nD) → (b : Ref sig .tc) → Buf (Elt Ideal) ((c : Thread nD τ).loc b)) (c : Dev nD),
    (Gen.dat3 (F := Ideal) V c).arrAt 5 cfg3.N
      = dense (V c main_v91) (V c main_v72) (V c main_v92) (V c main_v93) (fun j => V c main_v94 (ix2 0 (j 0))))
include hR0 hR1 hR2 hR3

/-! ## Layer 0: the stretch before region 0, then the region -/

theorem w1_src : W1 m ρ c (Proc.devRef .tc main_v1) = srcOf (m ((c : Thread nD τ).loc main_arg1)) := s0_src (W0 m ρ c)
theorem w1_dst : W1 m ρ c (Proc.devRef .tc main_v3) = dstOf (m ((c : Thread nD τ).loc main_arg1)) := s0_dst (W0 m ρ c)
theorem w1_mean : W1 m ρ c (Proc.devRef .tc main_v22) = meanFrom (m ((c : Thread nD τ).loc main_arg0)) (srcOf (m ((c : Thread nD τ).loc main_arg1))) (dstOf (m ((c : Thread nD τ).loc main_arg1))) := s0_mean (W0 m ρ c)
theorem w1_feat : W1 m ρ c (Proc.devRef .tc main_arg0) = (m ((c : Thread nD τ).loc main_arg0)) := s0_feat (W0 m ρ c)
theorem w1_wl : W1 m ρ c (Proc.devRef .tc main_v23) = tr (m ((c : Thread nD τ).loc main_arg2)) := s0_wl (W0 m ρ c)
theorem w1_wr : W1 m ρ c (Proc.devRef .tc main_v24) = tr (m ((c : Thread nD τ).loc main_arg4)) := s0_wr (W0 m ρ c)
theorem w1_b : W1 m ρ c (Proc.devRef .tc main_v25) = rowOf (m ((c : Thread nD τ).loc main_arg3)) := s0_b (W0 m ρ c)
theorem w1_arg5 : W1 m ρ c (Proc.devRef .tc main_arg5) = (m ((c : Thread nD τ).loc main_arg5)) := s0_keep_arg5 (W0 m ρ c)
theorem w1_arg6 : W1 m ρ c (Proc.devRef .tc main_arg6) = (m ((c : Thread nD τ).loc main_arg6)) := s0_keep_arg6 (W0 m ρ c)
theorem w1_arg7 : W1 m ρ c (Proc.devRef .tc main_arg7) = (m ((c : Thread nD τ).loc main_arg7)) := s0_keep_arg7 (W0 m ρ c)
theorem w1_arg8 : W1 m ρ c (Proc.devRef .tc main_arg8) = (m ((c : Thread nD τ).loc main_arg8)) := s0_keep_arg8 (W0 m ρ c)
theorem w1_arg9 : W1 m ρ c (Proc.devRef .tc main_arg9) = (m ((c : Thread nD τ).loc main_arg9)) := s0_keep_arg9 (W0 m ρ c)
theorem w1_arg10 : W1 m ρ c (Proc.devRef .tc main_arg10) = (m ((c : Thread nD τ).loc main_arg10)) := s0_keep_arg10 (W0 m ρ c)
theorem w1_arg11 : W1 m ρ c (Proc.devRef .tc main_arg11) = (m ((c : Thread nD τ).loc main_arg11)) := s0_keep_arg11 (W0 m ρ c)
theorem w1_arg12 : W1 m ρ c (Proc.devRef .tc main_arg12) = (m ((c : Thread nD τ).loc main_arg12)) := s0_keep_arg12 (W0 m ρ c)
theorem w1_arg13 : W1 m ρ c (Proc.devRef .tc main_arg13) = (m ((c : Thread nD τ).loc main_arg13)) := s0_keep_arg13 (W0 m ρ c)

/-- Region 0's output array after the region: the layer's features. -/
theorem w2_out : W2 m ρ c (Proc.devRef .tc main_v26) = h1 m c := by
  refine (W2_arr m ρ c 5).trans ((hR0 (V1 m ρ) c).trans ?_)
  show relu (dense (W1 m ρ c (Proc.devRef .tc main_v22)) (W1 m ρ c (Proc.devRef .tc main_arg0)) (W1 m ρ c (Proc.devRef .tc main_v23)) (W1 m ρ c (Proc.devRef .tc main_v24))
      (fun j => W1 m ρ c (Proc.devRef .tc main_v25) (ix2 0 (j 0)))) = _
  rw [w1_mean m ρ c hR0 hR1 hR2 hR3, w1_feat m ρ c hR0 hR1 hR2 hR3, w1_wl m ρ c hR0 hR1 hR2 hR3, w1_wr m ρ c hR0 hR1 hR2 hR3, w1_b m ρ c hR0 hR1 hR2 hR3, rowOf_read]
  rfl
theorem w2_src : W2 m ρ c (Proc.devRef .tc main_v1) = srcOf (m ((c : Thread nD τ).loc main_arg1)) := (W2_of_ne m ρ c main_v1 (by decide)).trans (w1_src m ρ c hR0 hR1 hR2 hR3)
theorem w2_dst : W2 m ρ c (Proc.devRef .tc main_v3) = dstOf (m ((c : Thread nD τ).loc main_arg1)) := (W2_of_ne m ρ c main_v3 (by decide)).trans (w1_dst m ρ c hR0 hR1 hR2 hR3)
theorem w2_arg5 : W2 m ρ c (Proc.devRef .tc main_arg5) = (m ((c : Thread nD τ).loc main_arg5)) := (W2_of_ne m ρ c main_arg5 (by decide)).trans (w1_arg5 m ρ c hR0 hR1 hR2 hR3)
theorem w2_arg6 : W2 m ρ c (Proc.devRef .tc main_arg6) = (m ((c : Thread nD τ).loc main_arg6)) := (W2_of_ne m ρ c main_arg6 (by decide)).trans (w1_arg6 m ρ c hR0 hR1 hR2 hR3)
theorem w2_arg7 : W2 m ρ c (Proc.devRef .tc main_arg7) = (m ((c : Thread nD τ).loc main_arg7)) := (W2_of_ne m ρ c main_arg7 (by decide)).trans (w1_arg7 m ρ c hR0 hR1 hR2 hR3)
theorem w2_arg8 : W2 m ρ c (Proc.devRef .tc main_arg8) = (m ((c : Thread nD τ).loc main_arg8)) := (W2_of_ne m ρ c main_arg8 (by decide)).trans (w1_arg8 m ρ c hR0 hR1 hR2 hR3)
theorem w2_arg9 : W2 m ρ c (Proc.devRef .tc main_arg9) = (m ((c : Thread nD τ).loc main_arg9)) := (W2_of_ne m ρ c main_arg9 (by decide)).trans (w1_arg9 m ρ c hR0 hR1 hR2 hR3)
theorem w2_arg10 : W2 m ρ c (Proc.devRef .tc main_arg10) = (m ((c : Thread nD τ).loc main_arg10)) := (W2_of_ne m ρ c main_arg10 (by decide)).trans (w1_arg10 m ρ c hR0 hR1 hR2 hR3)
theorem w2_arg11 : W2 m ρ c (Proc.devRef .tc main_arg11) = (m ((c : Thread nD τ).loc main_arg11)) := (W2_of_ne m ρ c main_arg11 (by decide)).trans (w1_arg11 m ρ c hR0 hR1 hR2 hR3)
theorem w2_arg12 : W2 m ρ c (Proc.devRef .tc main_arg12) = (m ((c : Thread nD τ).loc main_arg12)) := (W2_of_ne m ρ c main_arg12 (by decide)).trans (w1_arg12 m ρ c hR0 hR1 hR2 hR3)
theorem w2_arg13 : W2 m ρ c (Proc.devRef .tc main_arg13) = (m ((c : Thread nD τ).loc main_arg13)) := (W2_of_ne m ρ c main_arg13 (by decide)).trans (w1_arg13 m ρ c hR0 hR1 hR2 hR3)

/-! ## Layer 1: the stretch before region 1, then the region -/

theorem w3_mean : W3 m ρ c (Proc.devRef .tc main_v45) = meanFrom (h1 m c) (srcOf (m ((c : Thread nD τ).loc main_arg1))) (dstOf (m ((c : Thread nD τ).loc main_arg1))) :=
  (s1_mean (W2 m ρ c)).trans (by rw [w2_out m ρ c hR0 hR1 hR2 hR3, w2_src m ρ c hR0 hR1 hR2 hR3, w2_dst m ρ c hR0 hR1 hR2 hR3])
theorem w3_feat : W3 m ρ c (Proc.devRef .tc main_v26) = (h1 m c) :=
  (s1_feat (W2 m ρ c)).trans (w2_out m ρ c hR0 hR1 hR2 hR3)
theorem w3_wl : W3 m ρ c (Proc.devRef .tc main_v46) = tr (m ((c : Thread nD τ).loc main_arg5)) :=
  (s1_wl (W2 m ρ c)).trans (congrArg tr (w2_arg5 m ρ c hR0 hR1 hR2 hR3))
theorem w3_wr : W3 m ρ c (Proc.devRef .tc main_v47) = tr (m ((c : Thread nD τ).loc main_arg7)) :=
  (s1_wr (W2 m ρ c)).trans (congrArg tr (w2_arg7 m ρ c hR0 hR1 hR2 hR3))
theorem w3_b : W3 m ρ c (Proc.devRef .tc main_v48) = rowOf (m ((c : Thread nD τ).loc main_arg6)) :=
  (s1_b (W2 m ρ c)).trans (congrArg rowOf (w2_arg6 m ρ c hR0 hR1 hR2 hR3))
theorem w3_src : W3 m ρ c (Proc.devRef .tc main_v1) = srcOf (m ((c : Thread nD τ).loc main_arg1)) := (s1_keep_v1 (W2 m ρ c)).trans (w2_src m ρ c hR0 hR1 hR2 hR3)
theorem w3_dst : W3 m ρ c (Proc.devRef .tc main_v3) = dstOf (m ((c : Thread nD τ).loc main_arg1)) := (s1_keep_v3 (W2 m ρ c)).trans (w2_dst m ρ c hR0 hR1 hR2 hR3)
theorem w3_arg8 : W3 m ρ c (Proc.devRef .tc main_arg8) = (m ((c : Thread nD τ).loc main_arg8)) := (s1_keep_arg8 (W2 m ρ c)).trans (w2_arg8 m ρ c hR0 hR1 hR2 hR3)
theorem w3_arg9 : W3 m ρ c (Proc.devRef .tc main_arg9) = (m ((c : Thread nD τ).loc main_arg9)) := (s1_keep_arg9 (W2 m ρ c)).trans (w2_arg9 m ρ c hR0 hR1 hR2 hR3)
theorem w3_arg10 : W3 m ρ c (Proc.devRef .tc main_arg10) = (m ((c : Thread nD τ).loc main_arg10)) := (s1_keep_arg10 (W2 m ρ c)).trans (w2_arg10 m ρ c hR0 hR1 hR2 hR3)
theorem w3_arg11 : W3 m ρ c (Proc.devRef .tc main_arg11) = (m ((c : Thread nD τ).loc main_arg11)) := (s1_keep_arg11 (W2 m ρ c)).trans (w2_arg11 m ρ c hR0 hR1 hR2 hR3)
theorem w3_arg12 : W3 m ρ c (Proc.devRef .tc main_arg12) = (m ((c : Thread nD τ).loc main_arg12)) := (s1_keep_arg12 (W2 m ρ c)).trans (w2_arg12 m ρ c hR0 hR1 hR2 hR3)
theorem w3_arg13 : W3 m ρ c (Proc.devRef .tc main_arg13) = (m ((c : Thread nD τ).loc main_arg13)) := (s1_keep_arg13 (W2 m ρ c)).trans (w2_arg13 m ρ c hR0 hR1 hR2 hR3)

/-- Region 1's output array after the region: the layer's features. -/
theorem w4_out : W4 m ρ c (Proc.devRef .tc main_v49) = h2 m c := by
  refine (W4_arr m ρ c 5).trans ((hR1 (V3 m ρ) c).trans ?_)
  show dense (W3 m ρ c (Proc.devRef .tc main_v45)) (W3 m ρ c (Proc.devRef .tc main_v26)) (W3 m ρ c (Proc.devRef .tc main_v46)) (W3 m ρ c (Proc.devRef .tc main_v47))
      (fun j => W3 m ρ c (Proc.devRef .tc main_v48) (ix2 0 (j 0))) = _
  rw [w3_mean m ρ c hR0 hR1 hR2 hR3, w3_feat m ρ c hR0 hR1 hR2 hR3, w3_wl m ρ c hR0 hR1 hR2 hR3, w3_wr m ρ c hR0 hR1 hR2 hR3, w3_b m ρ c hR0 hR1 hR2 hR3, rowOf_read]
  rfl
theorem w4_src : W4 m ρ c (Proc.devRef .tc main_v1) = srcOf (m ((c : Thread nD τ).loc main_arg1)) := (W4_of_ne m ρ c main_v1 (by decide)).trans (w3_src m ρ c hR0 hR1 hR2 hR3)
theorem w4_dst : W4 m ρ c (Proc.devRef .tc main_v3) = dstOf (m ((c : Thread nD τ).loc main_arg1)) := (W4_of_ne m ρ c main_v3 (by decide)).trans (w3_dst m ρ c hR0 hR1 hR2 hR3)
theorem w4_arg8 : W4 m ρ c (Proc.devRef .tc main_arg8) = (m ((c : Thread nD τ).loc main_arg8)) := (W4_of_ne m ρ c main_arg8 (by decide)).trans (w3_arg8 m ρ c hR0 hR1 hR2 hR3)
theorem w4_arg9 : W4 m ρ c (Proc.devRef .tc main_arg9) = (m ((c : Thread nD τ).loc main_arg9)) := (W4_of_ne m ρ c main_arg9 (by decide)).trans (w3_arg9 m ρ c hR0 hR1 hR2 hR3)
theorem w4_arg10 : W4 m ρ c (Proc.devRef .tc main_arg10) = (m ((c : Thread nD τ).loc main_arg10)) := (W4_of_ne m ρ c main_arg10 (by decide)).trans (w3_arg10 m ρ c hR0 hR1 hR2 hR3)
theorem w4_arg11 : W4 m ρ c (Proc.devRef .tc main_arg11) = (m ((c : Thread nD τ).loc main_arg11)) := (W4_of_ne m ρ c main_arg11 (by decide)).trans (w3_arg11 m ρ c hR0 hR1 hR2 hR3)
theorem w4_arg12 : W4 m ρ c (Proc.devRef .tc main_arg12) = (m ((c : Thread nD τ).loc main_arg12)) := (W4_of_ne m ρ c main_arg12 (by decide)).trans (w3_arg12 m ρ c hR0 hR1 hR2 hR3)
theorem w4_arg13 : W4 m ρ c (Proc.devRef .tc main_arg13) = (m ((c : Thread nD τ).loc main_arg13)) := (W4_of_ne m ρ c main_arg13 (by decide)).trans (w3_arg13 m ρ c hR0 hR1 hR2 hR3)

/-! ## Layer 2: the stretch before region 2, then the region -/

theorem w5_mean : W5 m ρ c (Proc.devRef .tc main_v68) = meanFrom (h2 m c) (srcOf (m ((c : Thread nD τ).loc main_arg1))) (dstOf (m ((c : Thread nD τ).loc main_arg1))) :=
  (s2_mean (W4 m ρ c)).trans (by rw [w4_out m ρ c hR0 hR1 hR2 hR3, w4_src m ρ c hR0 hR1 hR2 hR3, w4_dst m ρ c hR0 hR1 hR2 hR3])
theorem w5_feat : W5 m ρ c (Proc.devRef .tc main_v49) = (h2 m c) :=
  (s2_feat (W4 m ρ c)).trans (w4_out m ρ c hR0 hR1 hR2 hR3)
theorem w5_wl : W5 m ρ c (Proc.devRef .tc main_v69) = tr (m ((c : Thread nD τ).loc main_arg8)) :=
  (s2_wl (W4 m ρ c)).trans (congrArg tr (w4_arg8 m ρ c hR0 hR1 hR2 hR3))
theorem w5_wr : W5 m ρ c (Proc.devRef .tc main_v70) = tr (m ((c : Thread nD τ).loc main_arg10)) :=
  (s2_wr (W4 m ρ c)).trans (congrArg tr (w4_arg10 m ρ c hR0 hR1 hR2 hR3))
theorem w5_b : W5 m ρ c (Proc.devRef .tc main_v71) = rowOf (m ((c : Thread nD τ).loc main_arg9)) :=
  (s2_b (W4 m ρ c)).trans (congrArg rowOf (w4_arg9 m ρ c hR0 hR1 hR2 hR3))
theorem w5_src : W5 m ρ c (Proc.devRef .tc main_v1) = srcOf (m ((c : Thread nD τ).loc main_arg1)) := (s2_keep_v1 (W4 m ρ c)).trans (w4_src m ρ c hR0 hR1 hR2 hR3)
theorem w5_dst : W5 m ρ c (Proc.devRef .tc main_v3) = dstOf (m ((c : Thread nD τ).loc main_arg1)) := (s2_keep_v3 (W4 m ρ c)).trans (w4_dst m ρ c hR0 hR1 hR2 hR3)
theorem w5_arg11 : W5 m ρ c (Proc.devRef .tc main_arg11) = (m ((c : Thread nD τ).loc main_arg11)) := (s2_keep_arg11 (W4 m ρ c)).trans (w4_arg11 m ρ c hR0 hR1 hR2 hR3)
theorem w5_arg12 : W5 m ρ c (Proc.devRef .tc main_arg12) = (m ((c : Thread nD τ).loc main_arg12)) := (s2_keep_arg12 (W4 m ρ c)).trans (w4_arg12 m ρ c hR0 hR1 hR2 hR3)
theorem w5_arg13 : W5 m ρ c (Proc.devRef .tc main_arg13) = (m ((c : Thread nD τ).loc main_arg13)) := (s2_keep_arg13 (W4 m ρ c)).trans (w4_arg13 m ρ c hR0 hR1 hR2 hR3)

/-- Region 2's output array after the region: the layer's features. -/
theorem w6_out : W6 m ρ c (Proc.devRef .tc main_v72) = h3 m c := by
  refine (W6_arr m ρ c 5).trans ((hR2 (V5 m ρ) c).trans ?_)
  show dense (W5 m ρ c (Proc.devRef .tc main_v68)) (W5 m ρ c (Proc.devRef .tc main_v49)) (W5 m ρ c (Proc.devRef .tc main_v69)) (W5 m ρ c (Proc.devRef .tc main_v70))
      (fun j => W5 m ρ c (Proc.devRef .tc main_v71) (ix2 0 (j 0))) = _
  rw [w5_mean m ρ c hR0 hR1 hR2 hR3, w5_feat m ρ c hR0 hR1 hR2 hR3, w5_wl m ρ c hR0 hR1 hR2 hR3, w5_wr m ρ c hR0 hR1 hR2 hR3, w5_b m ρ c hR0 hR1 hR2 hR3, rowOf_read]
  rfl
theorem w6_src : W6 m ρ c (Proc.devRef .tc main_v1) = srcOf (m ((c : Thread nD τ).loc main_arg1)) := (W6_of_ne m ρ c main_v1 (by decide)).trans (w5_src m ρ c hR0 hR1 hR2 hR3)
theorem w6_dst : W6 m ρ c (Proc.devRef .tc main_v3) = dstOf (m ((c : Thread nD τ).loc main_arg1)) := (W6_of_ne m ρ c main_v3 (by decide)).trans (w5_dst m ρ c hR0 hR1 hR2 hR3)
theorem w6_arg11 : W6 m ρ c (Proc.devRef .tc main_arg11) = (m ((c : Thread nD τ).loc main_arg11)) := (W6_of_ne m ρ c main_arg11 (by decide)).trans (w5_arg11 m ρ c hR0 hR1 hR2 hR3)
theorem w6_arg12 : W6 m ρ c (Proc.devRef .tc main_arg12) = (m ((c : Thread nD τ).loc main_arg12)) := (W6_of_ne m ρ c main_arg12 (by decide)).trans (w5_arg12 m ρ c hR0 hR1 hR2 hR3)
theorem w6_arg13 : W6 m ρ c (Proc.devRef .tc main_arg13) = (m ((c : Thread nD τ).loc main_arg13)) := (W6_of_ne m ρ c main_arg13 (by decide)).trans (w5_arg13 m ρ c hR0 hR1 hR2 hR3)

/-! ## Layer 3: the stretch before region 3, then the region -/

theorem w7_mean : W7 m ρ c (Proc.devRef .tc main_v91) = meanFrom (h3 m c) (srcOf (m ((c : Thread nD τ).loc main_arg1))) (dstOf (m ((c : Thread nD τ).loc main_arg1))) :=
  (s3_mean (W6 m ρ c)).trans (by rw [w6_out m ρ c hR0 hR1 hR2 hR3, w6_src m ρ c hR0 hR1 hR2 hR3, w6_dst m ρ c hR0 hR1 hR2 hR3])
theorem w7_feat : W7 m ρ c (Proc.devRef .tc main_v72) = (h3 m c) :=
  (s3_feat (W6 m ρ c)).trans (w6_out m ρ c hR0 hR1 hR2 hR3)
theorem w7_wl : W7 m ρ c (Proc.devRef .tc main_v92) = tr (m ((c : Thread nD τ).loc main_arg11)) :=
  (s3_wl (W6 m ρ c)).trans (congrArg tr (w6_arg11 m ρ c hR0 hR1 hR2 hR3))
theorem w7_wr : W7 m ρ c (Proc.devRef .tc main_v93) = tr (m ((c : Thread nD τ).loc main_arg13)) :=
  (s3_wr (W6 m ρ c)).trans (congrArg tr (w6_arg13 m ρ c hR0 hR1 hR2 hR3))
theorem w7_b : W7 m ρ c (Proc.devRef .tc main_v94) = rowOf (m ((c : Thread nD τ).loc main_arg12)) :=
  (s3_b (W6 m ρ c)).trans (congrArg rowOf (w6_arg12 m ρ c hR0 hR1 hR2 hR3))

/-- Region 3's output array after the region: the layer's features. -/
theorem w8_out : W8 m ρ c (Proc.devRef .tc main_v95) = h4 m c := by
  refine (W8_arr m ρ c 5).trans ((hR3 (V7 m ρ) c).trans ?_)
  show dense (W7 m ρ c (Proc.devRef .tc main_v91)) (W7 m ρ c (Proc.devRef .tc main_v72)) (W7 m ρ c (Proc.devRef .tc main_v92)) (W7 m ρ c (Proc.devRef .tc main_v93))
      (fun j => W7 m ρ c (Proc.devRef .tc main_v94) (ix2 0 (j 0))) = _
  rw [w7_mean m ρ c hR0 hR1 hR2 hR3, w7_feat m ρ c hR0 hR1 hR2 hR3, w7_wl m ρ c hR0 hR1 hR2 hR3, w7_wr m ρ c hR0 hR1 hR2 hR3, w7_b m ρ c hR0 hR1 hR2 hR3, rowOf_read]
  rfl

/-- The result array after the run's last segment is the specification of the argument arrays. -/
theorem result : W8 m ρ c (Proc.devRef .tc main_v95) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (w8_out m ρ c hR0 hR1 hR2 hR3).trans (h4_eq m c)

end Cert.KernelIdeal.SageFold

end
-- ==== Proof.LibDenseLayer.lean ====
/-
  One dense layer read at an entry, on a kernel's side and on the host's.

  A dense layer is a matrix product plus a bias. A kernel body prints it as a `tpu.matmul` into a zero accumulator
  with a one-row bias array `[1, N]` broadcast over the rows; jax on the host prints the bias as a vector `[N]`
  placed as the one row of `[1, N]` and that row repeated over the rows (two `broadcast_in_dim`s). At the extended
  reals both read, at `(p, c)`, the sum over the contracted coordinate of left `(p, k)` times right `(k, c)`, plus
  the bias at `c`. The matrix product's part is `Cert.Lib.PlainDot.sum_rows_cols` (this file imports that one; a
  host `dot_general` is that lemma after `Ideal.dotGeneral_apply`). Imports only the Idealize library besides.
-/
import proofs.«100420_j87522843558077_1_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

namespace Cert.Lib.DenseLayer

open Idealize.ShloMosaic Idealize.ShloMosaic.ValueIdx

/-! ## A kernel's layer: matmul into zero plus a broadcast bias row -/

/-- A matmul of `[M, K]` by `[K, N]` into the zero accumulator, plus a `[1, N]` row broadcast over the `M` rows,
    read at `(p, c)`: the sum over the contracted coordinate of left `(p, k)` times right `(k, c)`, plus the row's
    entry at `c`. The contraction record enters through the six facts of a plain matrix product. -/
theorem layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨2, ![1, N]⟩ .f32) (hb : (⟨2, ![1, N]⟩ : Shape).Broadcasts ⟨2, ![M, N]⟩) (p : Fin M) (c : Fin N) :
    addf (matmul D none L R (constant (F := Ideal) ⟨2, ![M, N]⟩ .f32 0x00000000#32)) (broadcastTo ⟨2, ![M, N]⟩ b hb) (ix2 p c)
      = (∑ k : Fin K, L (ix2 p k) * R (ix2 k c)) + b (ix2 (0 : Fin 1) c) := by
  rw [addf_apply, broadcastTo_1b_ab_apply]
  simp only [matmul]
  rw [Ideal.matmul_constant_zero_apply]
  exact congrArg (· + b (ix2 (0 : Fin 1) c)) (Cert.Lib.PlainDot.sum_rows_cols D hr hs hl0 hl1 hr0 hr1 L R (ix2 p c))

/-! ## The host's bias: a vector broadcast over the rows in two steps -/

/-- A vector `[N]` placed as the one row of `[1, N]` and that row repeated over `M` rows reads, at `(r, k)`, the
    vector at `k` (for `N ≠ 1`: a unit axis would be read at `0`, which is the same entry, but the library's
    lemma asks which case it is). -/
theorem bias_apply {α : Type} {M N : ℕ} (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (k : Fin N) :
    broadcastInDim ⟨2, ![M, N]⟩ ![0, 1] h2 (broadcastInDim ⟨2, ![1, N]⟩ ![1] h1 b) (ix2 r k) = b (ix1 k) :=
  (broadcastInDim_apply ![0, 1] h2 _ (ix2 r k) (ix2 (⟨0, Nat.one_pos⟩ : Fin 1) k) (fun a => match a with
      | ⟨0, _⟩ => by show (0 : ℕ) = if (1 : ℕ) = 1 then 0 else r.val; rw [if_pos rfl]
      | ⟨1, _⟩ => by show k.val = if N = 1 then 0 else k.val; rw [if_neg hN])).trans
    (broadcastInDim_apply ![1] h1 b (ix2 (⟨0, Nat.one_pos⟩ : Fin 1) k) (ix1 k) (fun a => match a with
      | ⟨0, _⟩ => by show k.val = if N = 1 then 0 else k.val; rw [if_neg hN]))

end Cert.Lib.DenseLayer

end
-- ==== Proof.Payload0.lean ====
/-
  The first layer's block computation, read at an entry.

  At one grid point the body holds a block of 5000 rows of the mean array (`v0`) and of the features (`v3`), the two
  weight matrices whole (`vWl`, `vWr`) and the bias row (`vb : [1, 128]`). It multiplies each block into its weight
  matrix through a zero accumulator, adds the bias row to every row of the first product, adds the two, and takes the
  maximum with zero. At the extended reals the roundings to the shorter float format and the casts of a shape to
  itself are the identity, so entry `(p, q)` of what is stored is
  `max ((Σ_k v0(p,k) · vWl(k,q) + vb(0,q)) + Σ_k v3(p,k) · vWr(k,q)) 0`.
-/
import proofs.«100420_j87522843558077_1_alg».proof.Proof.Gen.KernelIdeal.Skeleton
import proofs.«100420_j87522843558077_1_alg».proof.Proof.LibMatProd
import proofs.«100420_j87522843558077_1_alg».proof.Proof.LibDenseLayer
import Idealize.ShloMosaic.Lib.ValueIdx
import Idealize.ShloMosaic.Lib.Pipeline.Value

noncomputable section

namespace Cert.KernelIdeal.Payload0

open Cert.KernelIdeal Cert.KernelIdeal.Gen Idealize.ShloMosaic Idealize.ShloMosaic.ValueIdx
open Cert.Lib.MatProd

/-! ## The contraction record of a block times a weight matrix: rows times columns -/

theorem dot_rank : dot_S5000x128_S128x128_S5000x128_1_0_0_1_n_n.contr.rank = 1 := by decide

theorem dot_size : dot_S5000x128_S128x128_S5000x128_1_0_0_1_n_n.contr.size ⟨0, by decide⟩ = 128 := by decide

theorem dot_l0 (j : (⟨2, ![5000, 128]⟩ : Shape).Idx) (q : dot_S5000x128_S128x128_S5000x128_1_0_0_1_n_n.contr.Idx) :
    (dot_S5000x128_S128x128_S5000x128_1_0_0_1_n_n.lhsIdx j q 0).val = (j 0).val := rfl

theorem dot_l1 (j : (⟨2, ![5000, 128]⟩ : Shape).Idx) (q : dot_S5000x128_S128x128_S5000x128_1_0_0_1_n_n.contr.Idx) :
    (dot_S5000x128_S128x128_S5000x128_1_0_0_1_n_n.lhsIdx j q 1).val = (q ⟨0, by decide⟩).val := rfl

theorem dot_r0 (j : (⟨2, ![5000, 128]⟩ : Shape).Idx) (q : dot_S5000x128_S128x128_S5000x128_1_0_0_1_n_n.contr.Idx) :
    (dot_S5000x128_S128x128_S5000x128_1_0_0_1_n_n.rhsIdx j q 0).val = (q ⟨0, by decide⟩).val := rfl

theorem dot_r1 (j : (⟨2, ![5000, 128]⟩ : Shape).Idx) (q : dot_S5000x128_S128x128_S5000x128_1_0_0_1_n_n.contr.Idx) :
    (dot_S5000x128_S128x128_S5000x128_1_0_0_1_n_n.rhsIdx j q 1).val = (j 1).val := rfl

/-! ## The stored block at an entry -/

/-- One block times a weight matrix, plus the bias row: the first product of the layer, at `(p, q)`. -/
theorem biased_apply (L : FVec Ideal S5000x128 .bf16) (R : FVec Ideal S128x128 .bf16) (b : FVec Ideal S1x128 .f32)
    (p : Fin 5000) (q : Fin 128) :
    addf (matmul dot_S5000x128_S128x128_S5000x128_1_0_0_1_n_n none L R (constant (F := Ideal) S5000x128 .f32 0x00000000#32))
        (broadcastTo S5000x128 b broadcasts_S1x128_S5000x128) (ix2 p q)
      = prod L R (ix2 p q) + b (ix2 (0 : Fin 1) q) :=
  Cert.Lib.DenseLayer.layer_apply dot_S5000x128_S128x128_S5000x128_1_0_0_1_n_n dot_rank dot_size dot_l0 dot_l1 dot_r0 dot_r1
    L R b broadcasts_S1x128_S5000x128 p q

/-- One block times a weight matrix through the zero accumulator: the second product of the layer. -/
theorem plain_eq (L : FVec Ideal S5000x128 .bf16) (R : FVec Ideal S128x128 .bf16) :
    matmul dot_S5000x128_S128x128_S5000x128_1_0_0_1_n_n none L R (constant (F := Ideal) S5000x128 .f32 0x00000000#32)
      = prod L R :=
  matmul_zero_eq_prod dot_S5000x128_S128x128_S5000x128_1_0_0_1_n_n dot_rank dot_size dot_l0 dot_l1 dot_r0 dot_r1 none L R

/-- What the body stores, at `(p, q)`: the layer on the blocks, then the maximum with zero. -/
theorem pay_apply (v0 v3 : Vec Ideal S5000x128 .f32) (vWl vWr : Vec Ideal S128x128 .f32) (vb : Vec Ideal S1x128 .f32)
    (p : Fin 5000) (q : Fin 128) :
    k0_pay1 v0 v3 vWl vWr vb (ix2 p q)
      = max ((prod v0 vWl (ix2 p q) + vb (ix2 (0 : Fin 1) q)) + prod v3 vWr (ix2 p q)) (Ideal.ofBits .f32 0x00000000#32) := by
  unfold k0_pay1
  simp only [shapeCast_self]
  refine (maximumf_apply _ _ _).trans (congrArg₂ max ?_ rfl)
  refine (addf_apply _ _ _).trans (congrArg₂ (· + ·) ?_ ?_)
  · exact biased_apply (truncf .bf16 v0 bitsLt_bf16_f32) (truncf .bf16 vWl bitsLt_bf16_f32) vb p q
  · exact congrFun (plain_eq (truncf .bf16 v3 bitsLt_bf16_f32) (truncf .bf16 vWr bitsLt_bf16_f32)) (ix2 p q)

end Cert.KernelIdeal.Payload0

end
-- ==== Proof.Region0.lean ====
/-
  The first layer's region: the array it leaves is the layer of the arrays it finds.

  The region runs over ten grid points; point `t` holds rows `5000·t … 5000·t + 4999` of the mean array and of the
  features, the two weight matrices and the bias row whole, and writes back the same rows of the result. Entry
  `(p, q)` of what point `t` stores is the layer's entry `(5000·t + p, q)`: a product of a block of rows with a
  matrix is that block of rows of the whole product. Every row `r` lies in the block of point `r / 5000`, so after
  the ten write-backs the result array is the rectified dense layer of the five arrays, entry by entry.
-/
import proofs.«100420_j87522843558077_1_alg».proof.Proof.Gen.KernelIdeal.Frame
import proofs.«100420_j87522843558077_1_alg».proof.Proof.Spec
import proofs.«100420_j87522843558077_1_alg».proof.Proof.Payload0
import Idealize.ShloMosaic.Lib.Pipeline.Value

noncomputable section

namespace Cert.KernelIdeal.Region0

open Cert.KernelIdeal Cert.KernelIdeal.Gen Cert.Sage Idealize.ShloMosaic Idealize.ShloMosaic.TcCoe
open Idealize.ShloMosaic.ValueIdx
open Idealize.ShloMosaic.Pipeline (Dat)
open Cert.Lib.MatProd

/-! ## One point's block, over variables -/

/-- A bias row `[1, 128]` as the vector of its entries. -/
def rowVec (B : Mat 1 128) : Vec1 128 := fun j => B (ix2 (0 : Fin 1) (j 0))

/-- What point `T` stores at `(p, q)` is the rectified layer at `(5000·T + p, q)`, when its two row blocks hold rows
    `5000·T …` of `A` and of `X` and its other three blocks are the weight matrices and the bias row. -/
theorem block_apply (A X : Mat 50000 128) (WlT WrT : Mat 128 128) (B : Mat 1 128)
    (x0 x1 : Vec Ideal S5000x128 .f32) (x2 x4 : Vec Ideal S128x128 .f32) (x3 : Vec Ideal S1x128 .f32)
    (T : ℕ) (p : Fin 5000) (q : Fin 128) (h : T * 5000 + p.val < 50000)
    (h0 : ∀ k : Fin 128, x0 (ix2 p k) = A (ix2 ⟨T * 5000 + p.val, h⟩ k))
    (h1 : ∀ k : Fin 128, x1 (ix2 p k) = X (ix2 ⟨T * 5000 + p.val, h⟩ k))
    (h2 : x2 = WlT) (h4 : x4 = WrT) (h3 : x3 = B) :
    k0_pay1 x0 x1 x2 x4 x3 (ix2 p q)
      = relu (dense A X WlT WrT (rowVec B)) (ix2 ⟨T * 5000 + p.val, h⟩ q) := by
  subst h2 h4 h3
  refine (Payload0.pay_apply x0 x1 x2 x4 x3 p q).trans ?_
  show max _ _ = max ((prod A x2 (ix2 ⟨T * 5000 + p.val, h⟩ q) + x3 (ix2 (0 : Fin 1) q)) + prod X x4 (ix2 ⟨T * 5000 + p.val, h⟩ q)) _
  rw [prod_rows A x2 x0 x2 T p q h h0 (fun _ => rfl), prod_rows X x4 x1 x4 T p q h h1 (fun _ => rfl)]

/-! ## The index maps, decided over the grid -/

theorem hz : (![0, 0] : Fin 2 → Nat) = fun _ => 0 := funext fun a => by fin_cases a <;> rfl

/-- The row blocks (mean, features, result) sit at block `(t, 0)`; the weight matrices and the bias row at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks at a point, read off the arrays the region finds -/

section
variable (V : (c : Dev nD) → (b : Ref sig .tc) → Buf (Elt Ideal) ((c : Thread nD τ).loc b))

/-- Row `p` of the mean array's block at point `t` is row `5000·t + p` of the array. -/
theorem mean_block (c : Dev nD) (t : Fin cfg0.N) (p : Fin 5000) (k : Fin 128) (h : t.val * 5000 + p.val < 50000) :
    (iblk0 V c 0 t : Vec Ideal S5000x128 .f32) (ix2 p k) = (V c main_v22 : Mat 50000 128) (ix2 ⟨t.val * 5000 + p.val, h⟩ k) := by
  obtain ⟨e0, e1, -⟩ := idx_facts t
  unfold iblk0
  rw [View.read_apply]
  show V c main_v22 (((cfg0.win 0).blk t).view.emb (ix2 p k)) = V c main_v22 _
  refine congrArg (V c main_v22) ?_
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- Row `p` of the features' block at point `t` is row `5000·t + p` of the array. -/
theorem feat_block (c : Dev nD) (t : Fin cfg0.N) (p : Fin 5000) (k : Fin 128) (h : t.val * 5000 + p.val < 50000) :
    (iblk0 V c 1 t : Vec Ideal S5000x128 .f32) (ix2 p k) = (V c main_arg0 : Mat 50000 128) (ix2 ⟨t.val * 5000 + p.val, h⟩ k) := by
  obtain ⟨-, -, e0, e1, -⟩ := idx_facts t
  unfold iblk0
  rw [View.read_apply]
  show V c main_arg0 (((cfg0.win 1).blk t).view.emb (ix2 p k)) = V c main_arg0 _
  refine congrArg (V c main_arg0) ?_
  funext a; apply Fin.ext
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

/-- The left weight matrix's block at every point is the matrix. -/
theorem wl_block (c : Dev nD) (t : Fin cfg0.N) :
    (iblk0 V c 2 t : Vec Ideal S128x128 .f32) = (V c main_v23 : Mat 128 128) := by
  obtain ⟨-, -, -, -, e0, e1, -⟩ := idx_facts t
  unfold iblk0
  funext y
  rw [View.read_apply]
  show V c main_v23 (((cfg0.win 2).blk t).view.emb y) = V c main_v23 y
  refine congrArg (V c main_v23) ?_
  funext a; apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The bias row's block at every point is the row. -/
theorem bias_block (c : Dev nD) (t : Fin cfg0.N) :
    (iblk0 V c 3 t : Vec Ideal S1x128 .f32) = (V c main_v25 : Mat 1 128) := by
  obtain ⟨-, -, -, -, -, -, e0, e1, -⟩ := idx_facts t
  unfold iblk0
  funext y
  rw [View.read_apply]
  show V c main_v25 (((cfg0.win 3).blk t).view.emb y) = V c main_v25 y
  refine congrArg (V c main_v25) ?_
  funext a; apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The right weight matrix's block at every point is the matrix. -/
theorem wr_block (c : Dev nD) (t : Fin cfg0.N) :
    (iblk0 V c 4 t : Vec Ideal S128x128 .f32) = (V c main_v24 : Mat 128 128) := by
  obtain ⟨-, -, -, -, -, -, -, -, e0, e1, -⟩ := idx_facts t
  unfold iblk0
  funext y
  rw [View.read_apply]
  show V c main_v24 (((cfg0.win 4).blk t).view.emb y) = V c main_v24 y
  refine congrArg (V c main_v24) ?_
  funext a; apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-! ## What a point writes back, the cover, and the array the region leaves -/

/-- The rectified dense layer of the five arrays the region finds. -/
abbrev target (c : Dev nD) : Mat 50000 128 :=
  relu (dense (V c main_v22) (V c main_arg0) (V c main_v23) (V c main_v24) (rowVec (V c main_v25)))

/-- What point `t` writes back is block `t` of the layer. -/
theorem flushed_eq (c : Dev nD) (t : Fin cfg0.N) :
    (dat0 (F := Ideal) V c).flushed 5 t = ((cfg0.win 5).blk t).view.read (Elt Ideal) (target V c) := by
  show (cfg0.win 5).cut (grid0.coords t) ((dat0 (F := Ideal) V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts t
  funext j
  have hj0 : (j 0).val < 5000 := (j 0).isLt
  have hj1 : (j 1).val < 128 := (j 1).isLt
  have ht : t.val < 10 := lt_of_lt_of_eq t.isLt N_0
  have hrow : t.val * 5000 + (j 0).val < 50000 := by omega
  have hemb : ((cfg0.win 5).blk t).view.emb j = ix2 (⟨t.val * 5000 + (j 0).val, hrow⟩ : Fin 50000) (⟨(j 1).val, hj1⟩ : Fin 128) := by
    funext a; apply Fin.ext
    match a with
    | ⟨0, _⟩ => show win0_5.index t (0 : Fin 2) * 5000 + 1 * (j 0).val = t.val * 5000 + (j 0).val; rw [e0]; omega
    | ⟨1, _⟩ => show win0_5.index t (1 : Fin 2) * 128 + 1 * (j 1).val = (j 1).val; rw [e1]; omega
  have hx : (win0 5).xinj (grid0.coords t) j = ix2 (⟨(j 0).val, hj0⟩ : Fin 5000) (⟨(j 1).val, hj1⟩ : Fin 128) :=
    funext fun a => by match a with | ⟨0, _⟩ => rfl | ⟨1, _⟩ => rfl
  show k0_pay1 (iblk0 V c 0 t) (iblk0 V c 1 t) (iblk0 V c 2 t) (iblk0 V c 4 t) (iblk0 V c 3 t) ((win0 5).xinj (grid0.coords t) j)
    = target V c (((cfg0.win 5).blk t).view.emb j)
  rw [hx, hemb]
  exact block_apply (V c main_v22) (V c main_arg0) (V c main_v23) (V c main_v24) (V c main_v25)
    (iblk0 V c 0 t) (iblk0 V c 1 t) (iblk0 V c 2 t) (iblk0 V c 4 t) (iblk0 V c 3 t) t.val ⟨(j 0).val, hj0⟩ ⟨(j 1).val, hj1⟩ hrow
    (fun k => mean_block V c t ⟨(j 0).val, hj0⟩ k hrow) (fun k => feat_block V c t ⟨(j 0).val, hj0⟩ k hrow)
    (wl_block V c t) (wr_block V c t) (bias_block V c t)

/-- An entry of the result array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26).slice (win0_5.rect t)).set ↔ _
  rw [View.set_slice_whole, Rect.mem_set_unit]
  exact Iff.rfl

/-- Row `r` is written back by point `r / 5000`: the ten blocks of 5000 rows fill the array. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, -, -, -, -, e0, e1⟩ := idx_facts ⟨(i 0).val / 5000, hlt⟩
  have e0' : win0_5.index ⟨(i 0).val / 5000, hlt⟩ (0 : Fin 2) = (i 0).val / 5000 := e0
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [e0']; omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    rw [e1]; omega

/-- The array the first region leaves: the rectified dense layer of the mean array, the features, the two transposed
    weight matrices and the bias row, as the region finds them. -/
theorem arr (c : Dev nD) :
    (dat0 (F := Ideal) V c).arrAt 5 cfg0.N
      = relu (dense (V c main_v22) (V c main_arg0) (V c main_v23) (V c main_v24) (fun j => V c main_v25 (ix2 0 (j 0)))) :=
  (dat0 (F := Ideal) V c).arrAt_eq_of_cover 5 (target V c) (fun t _ => flushed_eq V c t) cover

end

end Cert.KernelIdeal.Region0

end
-- ==== Proof.Region1.lean ====
/-
  Region 1 of the kernel, read as a value: its output array after the region is one dense layer of the arrays
  the region finds.

  The region runs over ten points; point `t` owns rows `5000 t … 5000 t + 4999` of the two row arrays (the mean over
  incoming edges and the node features) and of the output, and sees the two weight matrices and the one-row bias
  whole. The body's arithmetic at an entry `(p, q)` of a block is
  `(Σ_k mean(p,k) · WlT(k,q) + bias(0,q)) + Σ_k x(p,k) · WrT(k,q)`: two matrix products into a zero accumulator, a
  broadcast bias row, and two additions; the changes of float format in between are the identity at the ideal
  values. A product of a block of rows is the block of rows of the product, so what point `t` writes back is block
  `t` of the layer of the whole arrays, and since row `r` lies in the block of point `r / 5000` the blocks cover
  the output.
-/
import proofs.«100420_j87522843558077_1_alg».proof.Proof.Gen.KernelIdeal.Frame
import proofs.«100420_j87522843558077_1_alg».proof.Proof.Spec
import proofs.«100420_j87522843558077_1_alg».proof.Proof.LibMatProd
import proofs.«100420_j87522843558077_1_alg».proof.Proof.LibDenseLayer
import Idealize.ShloMosaic.Lib.Pipeline.Value
import Idealize.ShloMosaic.Lib.ValueIdx

noncomputable section

namespace Cert.KernelIdeal.Region1

open Cert.KernelIdeal Idealize.ShloMosaic Idealize.ShloMosaic.ValueIdx Idealize.ShloMosaic.TcCoe Idealize.SL.Sem
open Idealize.ShloMosaic.Pipeline (Dat)
open Cert.Lib.MatProd

/-! ## The body's arithmetic at an entry -/

/-- The contraction record of the body's two products has one contracted axis, -/
theorem D_rank : dot_S5000x128_S128x128_S5000x128_1_0_0_1_n_n.contr.rank = 1 := by decide
/-- of extent 128. -/
theorem D_size : dot_S5000x128_S128x128_S5000x128_1_0_0_1_n_n.contr.size ⟨0, by decide⟩ = 128 := by decide

/-- The payload at `(p, q)`: the first product plus the bias row's entry, plus the second product. -/
theorem pay_apply (v0 v3 : Vec Ideal S5000x128 .f32) (vWl vWr : Vec Ideal S128x128 .f32) (vb : Vec Ideal S1x128 .f32)
    (p : Fin 5000) (q : Fin 128) :
    Gen.k1_pay1 (F := Ideal) v0 v3 vWl vWr vb (ix2 p q)
      = (prod v0 vWl (ix2 p q) + vb (ix2 (0 : Fin 1) q)) + prod v3 vWr (ix2 p q) := by
  unfold Gen.k1_pay1
  simp only [shapeCast_self]
  refine (addf_apply _ _ _).trans ?_
  refine congrArg₂ (· + ·) ?_ ?_
  · exact Cert.Lib.DenseLayer.layer_apply dot_S5000x128_S128x128_S5000x128_1_0_0_1_n_n D_rank D_size
      (fun _ _ => rfl) (fun _ _ => rfl) (fun _ _ => rfl) (fun _ _ => rfl)
      (truncf FTy.bf16 v0 Gen.bitsLt_bf16_f32) (truncf FTy.bf16 vWl Gen.bitsLt_bf16_f32) vb Gen.broadcasts_S1x128_S5000x128 p q
  · exact congrFun (matmul_zero_eq_prod dot_S5000x128_S128x128_S5000x128_1_0_0_1_n_n D_rank D_size
      (fun _ _ => rfl) (fun _ _ => rfl) (fun _ _ => rfl) (fun _ _ => rfl) none
      (truncf FTy.bf16 v3 Gen.bitsLt_bf16_f32) (truncf FTy.bf16 vWr Gen.bitsLt_bf16_f32)) (ix2 p q)

/-- One entry of the payload over blocks that hold rows `T * 5000 …` of the two row arrays and the whole of the
    three small ones is the layer's entry in row `T * 5000 + p`. -/
theorem point_eq (A X : Cert.Sage.Mat 50000 128) (WlT WrT : Cert.Sage.Mat 128 128) (B : Vec Ideal S1x128 .f32)
    (x0 x1 : Vec Ideal S5000x128 .f32) (x2 x4 : Vec Ideal S128x128 .f32) (x3 : Vec Ideal S1x128 .f32)
    (T : ℕ) (p : Fin 5000) (q : Fin 128) (h : T * 5000 + p.val < 50000)
    (h0 : ∀ k : Fin 128, x0 (ix2 p k) = A (ix2 ⟨T * 5000 + p.val, h⟩ k))
    (h1 : ∀ k : Fin 128, x1 (ix2 p k) = X (ix2 ⟨T * 5000 + p.val, h⟩ k))
    (h2 : ∀ k : Fin 128, x2 (ix2 k q) = WlT (ix2 k q))
    (h4 : ∀ k : Fin 128, x4 (ix2 k q) = WrT (ix2 k q))
    (h3 : x3 (ix2 (0 : Fin 1) q) = B (ix2 (0 : Fin 1) q)) :
    Gen.k1_pay1 (F := Ideal) x0 x1 x2 x4 x3 (ix2 p q)
      = Cert.Sage.dense A X WlT WrT (fun j => B (ix2 0 (j 0))) (ix2 ⟨T * 5000 + p.val, h⟩ q) := by
  rw [pay_apply, Cert.Sage.dense_apply, prod_rows A WlT x0 x2 T p q h h0 h2, prod_rows X WrT x1 x4 T p q h h1 h4, h3]

/-! ## From blocks to the array -/

theorem hz : (![0, 0] : Fin 2 → Nat) = fun _ => 0 := funext fun a => by fin_cases a <;> rfl

/-- The index maps over the grid: the two row arrays and the output are at block `(t, 0)`, the three small arrays at
    block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Window 0's block at point `t` holds rows `5000 t …` of its array. -/
theorem read0 (c : Dev nD) (t : Fin cfg1.N) (p : Fin 5000) (k : Fin 128) (h : t.val * 5000 + p.val < 50000) :
    Gen.iblk1 V c 0 t (ix2 p k) = V c main_v45 (ix2 ⟨t.val * 5000 + p.val, h⟩ k) := by
  obtain ⟨e0, e1, -⟩ := idx_facts t
  show V c main_v45 (((cfg1.win 0).blk t).view.emb (ix2 p k)) = _
  refine congrArg (V c main_v45) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- Window 1's block at point `t` holds rows `5000 t …` of its array. -/
theorem read1 (c : Dev nD) (t : Fin cfg1.N) (p : Fin 5000) (k : Fin 128) (h : t.val * 5000 + p.val < 50000) :
    Gen.iblk1 V c 1 t (ix2 p k) = V c main_v26 (ix2 ⟨t.val * 5000 + p.val, h⟩ k) := by
  obtain ⟨-, -, e0, e1, -⟩ := idx_facts t
  show V c main_v26 (((cfg1.win 1).blk t).view.emb (ix2 p k)) = _
  refine congrArg (V c main_v26) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega

/-- Window 2's block is its whole array at every point. -/
theorem read2 (c : Dev nD) (t : Fin cfg1.N) (k q : Fin 128) :
    Gen.iblk1 V c 2 t (ix2 k q) = V c main_v46 (ix2 k q) := by
  obtain ⟨-, -, -, -, e0, e1, -⟩ := idx_facts t
  show V c main_v46 (((cfg1.win 2).blk t).view.emb (ix2 k q)) = _
  refine congrArg (V c main_v46) (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- Window 3's block is its whole one-row array at every point. -/
theorem read3 (c : Dev nD) (t : Fin cfg1.N) (q : Fin 128) :
    Gen.iblk1 V c 3 t (ix2 (0 : Fin 1) q) = V c main_v48 (ix2 (0 : Fin 1) q) := by
  obtain ⟨-, -, -, -, -, -, e0, e1, -⟩ := idx_facts t
  show V c main_v48 (((cfg1.win 3).blk t).view.emb (ix2 (0 : Fin 1) q)) = _
  refine congrArg (V c main_v48) (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

/-- Window 4's block is its whole array at every point. -/
theorem read4 (c : Dev nD) (t : Fin cfg1.N) (k q : Fin 128) :
    Gen.iblk1 V c 4 t (ix2 k q) = V c main_v47 (ix2 k q) := by
  obtain ⟨-, -, -, -, -, -, -, -, e0, e1, -⟩ := idx_facts t
  show V c main_v47 (((cfg1.win 4).blk t).view.emb (ix2 k q)) = _
  refine congrArg (V c main_v47) (funext fun a => Fin.ext ?_)
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- What the region's output array ends holding. -/
abbrev target (c : Dev nD) : Cert.Sage.Mat 50000 128 :=
  Cert.Sage.dense (V c main_v45) (V c main_v26) (V c main_v46) (V c main_v47) (fun j => V c main_v48 (ix2 0 (j 0)))

/-- What point `t` writes back is block `t` of the layer of the arrays as the region finds them. -/
theorem flushed_eq (c : Dev nD) (t : Fin cfg1.N) :
    (Gen.dat1 (F := Ideal) V c).flushed 5 t = ((cfg1.win 5).blk t).view.read (Elt Ideal) (target V c) := by
  show (cfg1.win 5).cut (grid1.coords t) ((Gen.dat1 V c).after 5 t) = _
  rw [Gen.after1_5]
  unfold Gen.out1_5
  rw [View.canon_unit_zero hz]
  simp only [View.ld_unit_zero (S := S5000x128) hz, View.ld_unit_zero (S := S128x128) hz, View.ld_unit_zero (S := S1x128) hz]
  funext j
  obtain ⟨-, -, -, -, -, -, -, -, -, -, e50, e51⟩ := idx_facts t
  have ht : t.val < 10 := t.isLt
  have hp : (j 0).val < 5000 := (j 0).isLt
  have hq : (j 1).val < 128 := (j 1).isLt
  have hrow : t.val * 5000 + (j 0).val < 50000 := by omega
  have hL : (cfg1.win 5).xinj (grid1.coords t) j = ix2 (⟨(j 0).val, hp⟩ : Fin 5000) (⟨(j 1).val, hq⟩ : Fin 128) :=
    funext fun a => match a with | ⟨0, _⟩ => rfl | ⟨1, _⟩ => rfl
  have hR : ((cfg1.win 5).blk t).view.emb j = ix2 (⟨t.val * 5000 + (j 0).val, hrow⟩ : Fin 50000) (⟨(j 1).val, hq⟩ : Fin 128) :=
    funext fun a => Fin.ext (by
      match a with
      | ⟨0, _⟩ => show win1_5.index t (0 : Fin 2) * 5000 + 1 * (j 0).val = t.val * 5000 + (j 0).val; rw [e50]; omega
      | ⟨1, _⟩ => show win1_5.index t (1 : Fin 2) * 128 + 1 * (j 1).val = (j 1).val; rw [e51]; omega)
  show Gen.k1_pay1 (Gen.iblk1 V c 0 t) (Gen.iblk1 V c 1 t) (Gen.iblk1 V c 2 t) (Gen.iblk1 V c 4 t) (Gen.iblk1 V c 3 t) ((cfg1.win 5).xinj (grid1.coords t) j)
    = target V c (((cfg1.win 5).blk t).view.emb j)
  rw [hL, hR]
  exact point_eq (V c main_v45) (V c main_v26) (V c main_v46) (V c main_v47) (V c main_v48)
    (Gen.iblk1 V c 0 t) (Gen.iblk1 V c 1 t) (Gen.iblk1 V c 2 t) (Gen.iblk1 V c 4 t) (Gen.iblk1 V c 3 t)
    t.val ⟨(j 0).val, hp⟩ ⟨(j 1).val, hq⟩ hrow
    (fun k => read0 V c t ⟨(j 0).val, hp⟩ k hrow) (fun k => read1 V c t ⟨(j 0).val, hp⟩ k hrow)
    (fun k => read2 V c t k ⟨(j 1).val, hq⟩) (fun k => read4 V c t k ⟨(j 1).val, hq⟩) (read3 V c t ⟨(j 1).val, hq⟩)

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v49).slice (win1_5.rect t)).set ↔ _
  rw [View.set_slice_whole, Rect.mem_set_unit]
  exact Iff.rfl

/-- Row `r` of the array is in the block of point `r / 5000`. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 5000 < 10 := by omega
  refine ⟨⟨(i 0).val / 5000, ht⟩, Gen.flush1_5 _, ?_⟩
  obtain ⟨-, -, -, -, -, -, -, -, -, -, e0, e1⟩ := idx_facts ⟨(i 0).val / 5000, ht⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e1]; omega

/-- The region's output array after the run is the layer of the arrays as the region finds them. -/
theorem arr (c : Dev nD) :
    (Gen.dat1 (F := Ideal) V c).arrAt 5 cfg1.N
      = Cert.Sage.dense (V c main_v45) (V c main_v26) (V c main_v46) (V c main_v47) (fun j => V c main_v48 (ix2 0 (j 0))) :=
  (Gen.dat1 (F := Ideal) V c).arrAt_eq_of_cover 5 (target V c) (fun t _ => flushed_eq V c t) cover

end Cert.KernelIdeal.Region1

end
-- ==== Proof.Region2.lean ====
/-
  Region 2 of the kernel, read as a value: its output array after the region is one dense layer of the arrays
  the region finds.

  The region runs over ten points; point `t` owns rows `5000 t … 5000 t + 4999` of the two row arrays (the mean over
  incoming edges and the node features) and of the output, and sees the two weight matrices and the one-row bias
  whole. The body's arithmetic at an entry `(p, q)` of a block is
  `(Σ_k mean(p,k) · WlT(k,q) + bias(0,q)) + Σ_k x(p,k) · WrT(k,q)`: two matrix products into a zero accumulator, a
  broadcast bias row, and two additions; the changes of float format in between are the identity at the ideal
  values. A product of a block of rows is the block of rows of the product, so what point `t` writes back is block
  `t` of the layer of the whole arrays, and since row `r` lies in the block of point `r / 5000` the blocks cover
  the output.
-/
import proofs.«100420_j87522843558077_1_alg».proof.Proof.Gen.KernelIdeal.Frame
import proofs.«100420_j87522843558077_1_alg».proof.Proof.Spec
import proofs.«100420_j87522843558077_1_alg».proof.Proof.LibMatProd
import proofs.«100420_j87522843558077_1_alg».proof.Proof.LibDenseLayer
import Idealize.ShloMosaic.Lib.Pipeline.Value
import Idealize.ShloMosaic.Lib.ValueIdx

noncomputable section

namespace Cert.KernelIdeal.Region2

open Cert.KernelIdeal Idealize.ShloMosaic Idealize.ShloMosaic.ValueIdx Idealize.ShloMosaic.TcCoe Idealize.SL.Sem
open Idealize.ShloMosaic.Pipeline (Dat)
open Cert.Lib.MatProd

/-! ## The body's arithmetic at an entry -/

/-- The contraction record of the body's two products has one contracted axis, -/
theorem D_rank : dot_S5000x128_S128x128_S5000x128_1_0_0_1_n_n.contr.rank = 1 := by decide
/-- of extent 128. -/
theorem D_size : dot_S5000x128_S128x128_S5000x128_1_0_0_1_n_n.contr.size ⟨0, by decide⟩ = 128 := by decide

/-- The payload at `(p, q)`: the first product plus the bias row's entry, plus the second product. -/
theorem pay_apply (v0 v3 : Vec Ideal S5000x128 .f32) (vWl vWr : Vec Ideal S128x128 .f32) (vb : Vec Ideal S1x128 .f32)
    (p : Fin 5000) (q : Fin 128) :
    Gen.k2_pay1 (F := Ideal) v0 v3 vWl vWr vb (ix2 p q)
      = (prod v0 vWl (ix2 p q) + vb (ix2 (0 : Fin 1) q)) + prod v3 vWr (ix2 p q) := by
  unfold Gen.k2_pay1
  simp only [shapeCast_self]
  refine (addf_apply _ _ _).trans ?_
  refine congrArg₂ (· + ·) ?_ ?_
  · exact Cert.Lib.DenseLayer.layer_apply dot_S5000x128_S128x128_S5000x128_1_0_0_1_n_n D_rank D_size
      (fun _ _ => rfl) (fun _ _ => rfl) (fun _ _ => rfl) (fun _ _ => rfl)
      (truncf FTy.bf16 v0 Gen.bitsLt_bf16_f32) (truncf FTy.bf16 vWl Gen.bitsLt_bf16_f32) vb Gen.broadcasts_S1x128_S5000x128 p q
  · exact congrFun (matmul_zero_eq_prod dot_S5000x128_S128x128_S5000x128_1_0_0_1_n_n D_rank D_size
      (fun _ _ => rfl) (fun _ _ => rfl) (fun _ _ => rfl) (fun _ _ => rfl) none
      (truncf FTy.bf16 v3 Gen.bitsLt_bf16_f32) (truncf FTy.bf16 vWr Gen.bitsLt_bf16_f32)) (ix2 p q)

/-- One entry of the payload over blocks that hold rows `T * 5000 …` of the two row arrays and the whole of the
    three small ones is the layer's entry in row `T * 5000 + p`. -/
theorem point_eq (A X : Cert.Sage.Mat 50000 128) (WlT WrT : Cert.Sage.Mat 128 128) (B : Vec Ideal S1x128 .f32)
    (x0 x1 : Vec Ideal S5000x128 .f32) (x2 x4 : Vec Ideal S128x128 .f32) (x3 : Vec Ideal S1x128 .f32)
    (T : ℕ) (p : Fin 5000) (q : Fin 128) (h : T * 5000 + p.val < 50000)
    (h0 : ∀ k : Fin 128, x0 (ix2 p k) = A (ix2 ⟨T * 5000 + p.val, h⟩ k))
    (h1 : ∀ k : Fin 128, x1 (ix2 p k) = X (ix2 ⟨T * 5000 + p.val, h⟩ k))
    (h2 : ∀ k : Fin 128, x2 (ix2 k q) = WlT (ix2 k q))
    (h4 : ∀ k : Fin 128, x4 (ix2 k q) = WrT (ix2 k q))
    (h3 : x3 (ix2 (0 : Fin 1) q) = B (ix2 (0 : Fin 1) q)) :
    Gen.k2_pay1 (F := Ideal) x0 x1 x2 x4 x3 (ix2 p q)
      = Cert.Sage.dense A X WlT WrT (fun j => B (ix2 0 (j 0))) (ix2 ⟨T * 5000 + p.val, h⟩ q) := by
  rw [pay_apply, Cert.Sage.dense_apply, prod_rows A WlT x0 x2 T p q h h0 h2, prod_rows X WrT x1 x4 T p q h h1 h4, h3]

/-! ## From blocks to the array -/

theorem hz : (![0, 0] : Fin 2 → Nat) = fun _ => 0 := funext fun a => by fin_cases a <;> rfl

/-- The index maps over the grid: the two row arrays and the output are at block `(t, 0)`, the three small arrays at
    block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- Window 0's block at point `t` holds rows `5000 t …` of its array. -/
theorem read0 (c : Dev nD) (t : Fin cfg2.N) (p : Fin 5000) (k : Fin 128) (h : t.val * 5000 + p.val < 50000) :
    Gen.iblk2 V c 0 t (ix2 p k) = V c main_v68 (ix2 ⟨t.val * 5000 + p.val, h⟩ k) := by
  obtain ⟨e0, e1, -⟩ := idx_facts t
  show V c main_v68 (((cfg2.win 0).blk t).view.emb (ix2 p k)) = _
  refine congrArg (V c main_v68) (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

/-- Window 1's block at point `t` holds rows `5000 t …` of its array. -/
theorem read1 (c : Dev nD) (t : Fin cfg2.N) (p : Fin 5000) (k : Fin 128) (h : t.val * 5000 + p.val < 50000) :
    Gen.iblk2 V c 1 t (ix2 p k) = V c main_v49 (ix2 ⟨t.val * 5000 + p.val, h⟩ k) := by
  obtain ⟨-, -, e0, e1, -⟩ := idx_facts t
  show V c main_v49 (((cfg2.win 1).blk t).view.emb (ix2 p k)) = _
  refine congrArg (V c main_v49) (funext fun a => Fin.ext ?_)
  match a with
  | ⟨0, _⟩ => show win2_1.index t (0 : Fin 2) * 5000 + 1 * p.val = t.val * 5000 + p.val; rw [e0]; omega
  | ⟨1, _⟩ => show win2_1.index t (1 : Fin 2) * 128 + 1 * k.val = k.val; rw [e1]; omega

/-- Window 2's block is its whole array at every point. -/
theorem read2 (c : Dev nD) (t : Fin cfg2.N) (k q : Fin 128) :
    Gen.iblk2 V c 2 t (ix2 k q) = V c main_v69 (ix2 k q) := by
  obtain ⟨-, -, -, -, e0, e1, -⟩ := idx_facts t
  show V c main_v69 (((cfg2.win 2).blk t).view.emb (ix2 k q)) = _
  refine congrArg (V c main_v69) (funext fun a => Fin.ext ?_)
  match a with
  | ⟨0, _⟩ => show win2_2.index t (0 : Fin 2) * 128 + 1 * k.val = k.val; rw [e0]; omega
  | ⟨1, _⟩ => show win2_2.index t (1 : Fin 2) * 128 + 1 * q.val = q.val; rw [e1]; omega

/-- Window 3's block is its whole one-row array at every point. -/
theorem read3 (c : Dev nD) (t : Fin cfg2.N) (q : Fin 128) :
    Gen.iblk2 V c 3 t (ix2 (0 : Fin 1) q) = V c main_v71 (ix2 (0 : Fin 1) q) := by
  obtain ⟨-, -, -, -, -, -, e0, e1, -⟩ := idx_facts t
  show V c main_v71 (((cfg2.win 3).blk t).view.emb (ix2 (0 : Fin 1) q)) = _
  refine congrArg (V c main_v71) (funext fun a => Fin.ext ?_)
  match a with
  | ⟨0, _⟩ => show win2_3.index t (0 : Fin 2) * 1 + 1 * 0 = 0; rw [e0]
  | ⟨1, _⟩ => show win2_3.index t (1 : Fin 2) * 128 + 1 * q.val = q.val; rw [e1]; omega

/-- Window 4's block is its whole array at every point. -/
theorem read4 (c : Dev nD) (t : Fin cfg2.N) (k q : Fin 128) :
    Gen.iblk2 V c 4 t (ix2 k q) = V c main_v70 (ix2 k q) := by
  obtain ⟨-, -, -, -, -, -, -, -, e0, e1, -⟩ := idx_facts t
  show V c main_v70 (((cfg2.win 4).blk t).view.emb (ix2 k q)) = _
  refine congrArg (V c main_v70) (funext fun a => Fin.ext ?_)
  match a with
  | ⟨0, _⟩ => show win2_4.index t (0 : Fin 2) * 128 + 1 * k.val = k.val; rw [e0]; omega
  | ⟨1, _⟩ => show win2_4.index t (1 : Fin 2) * 128 + 1 * q.val = q.val; rw [e1]; omega

/-- What the region's output array ends holding. -/
abbrev target (c : Dev nD) : Cert.Sage.Mat 50000 128 :=
  Cert.Sage.dense (V c main_v68) (V c main_v49) (V c main_v69) (V c main_v70) (fun j => V c main_v71 (ix2 0 (j 0)))

/-- What point `t` writes back is block `t` of the layer of the arrays as the region finds them. -/
theorem flushed_eq (c : Dev nD) (t : Fin cfg2.N) :
    (Gen.dat2 (F := Ideal) V c).flushed 5 t = ((cfg2.win 5).blk t).view.read (Elt Ideal) (target V c) := by
  show (cfg2.win 5).cut (grid2.coords t) ((Gen.dat2 V c).after 5 t) = _
  rw [Gen.after2_5]
  unfold Gen.out2_5
  rw [View.canon_unit_zero hz]
  simp only [View.ld_unit_zero (S := S5000x128) hz, View.ld_unit_zero (S := S128x128) hz, View.ld_unit_zero (S := S1x128) hz]
  funext j
  obtain ⟨-, -, -, -, -, -, -, -, -, -, e50, e51⟩ := idx_facts t
  have ht : t.val < 10 := t.isLt
  have hp : (j 0).val < 5000 := (j 0).isLt
  have hq : (j 1).val < 128 := (j 1).isLt
  have hrow : t.val * 5000 + (j 0).val < 50000 := by omega
  have hL : (cfg2.win 5).xinj (grid2.coords t) j = ix2 (⟨(j 0).val, hp⟩ : Fin 5000) (⟨(j 1).val, hq⟩ : Fin 128) :=
    funext fun a => match a with | ⟨0, _⟩ => rfl | ⟨1, _⟩ => rfl
  have hR : ((cfg2.win 5).blk t).view.emb j = ix2 (⟨t.val * 5000 + (j 0).val, hrow⟩ : Fin 50000) (⟨(j 1).val, hq⟩ : Fin 128) :=
    funext fun a => Fin.ext (by
      match a with
      | ⟨0, _⟩ => show win2_5.index t (0 : Fin 2) * 5000 + 1 * (j 0).val = t.val * 5000 + (j 0).val; rw [e50]; omega
      | ⟨1, _⟩ => show win2_5.index t (1 : Fin 2) * 128 + 1 * (j 1).val = (j 1).val; rw [e51]; omega)
  show Gen.k2_pay1 (Gen.iblk2 V c 0 t) (Gen.iblk2 V c 1 t) (Gen.iblk2 V c 2 t) (Gen.iblk2 V c 4 t) (Gen.iblk2 V c 3 t) ((cfg2.win 5).xinj (grid2.coords t) j)
    = target V c (((cfg2.win 5).blk t).view.emb j)
  rw [hL, hR]
  exact point_eq (V c main_v68) (V c main_v49) (V c main_v69) (V c main_v70) (V c main_v71)
    (Gen.iblk2 V c 0 t) (Gen.iblk2 V c 1 t) (Gen.iblk2 V c 2 t) (Gen.iblk2 V c 4 t) (Gen.iblk2 V c 3 t)
    t.val ⟨(j 0).val, hp⟩ ⟨(j 1).val, hq⟩ hrow
    (fun k => read0 V c t ⟨(j 0).val, hp⟩ k hrow) (fun k => read1 V c t ⟨(j 0).val, hp⟩ k hrow)
    (fun k => read2 V c t k ⟨(j 1).val, hq⟩) (fun k => read4 V c t k ⟨(j 1).val, hq⟩) (read3 V c t ⟨(j 1).val, hq⟩)

/-- An index of the array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v72).slice (win2_5.rect t)).set ↔ _
  rw [View.set_slice_whole, Rect.mem_set_unit]
  exact Iff.rfl

/-- Row `r` of the array is in the block of point `r / 5000`. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have ht : (i 0).val / 5000 < 10 := by omega
  refine ⟨⟨(i 0).val / 5000, ht⟩, Gen.flush2_5 _, ?_⟩
  obtain ⟨-, -, -, -, -, -, -, -, -, -, e0, e1⟩ := idx_facts ⟨(i 0).val / 5000, ht⟩
  rw [mem_blk]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val ∧ (i 1).val < win2_5.index ⟨(i 0).val / 5000, ht⟩ (1 : Fin 2) * 128 + 128
    rw [e1]; omega

/-- The region's output array after the run is the layer of the arrays as the region finds them. -/
theorem arr (c : Dev nD) :
    (Gen.dat2 (F := Ideal) V c).arrAt 5 cfg2.N
      = Cert.Sage.dense (V c main_v68) (V c main_v49) (V c main_v69) (V c main_v70) (fun j => V c main_v71 (ix2 0 (j 0))) :=
  (Gen.dat2 (F := Ideal) V c).arrAt_eq_of_cover 5 (target V c) (fun t _ => flushed_eq V c t) cover

end Cert.KernelIdeal.Region2

end
-- ==== Proof.Region3.lean ====
/-
  Region 3 of the kernel, read as a value: its output array after the region is one dense layer of the arrays
  the region finds.

  The region runs over ten points; point `t` owns rows `5000 t … 5000 t + 4999` of the two row arrays (the mean over
  incoming edges and the node features) and of the output, and sees the two weight matrices and the one-row bias
  whole. The body's arithmetic at an entry `(p, q)` of a block is
  `(Σ_k mean(p,k) · WlT(k,q) + bias(0,q)) + Σ_k x(p,k) · WrT(k,q)`: two matrix products into a zero accumulator, a
  broadcast bias row, and two additions; the changes of float format in between are the identity at the ideal
  values. A product of a block of rows is the block of rows of the product, so what point `t` writes back is block
  `t` of the layer of the whole arrays, and since row `r` lies in the block of point `r / 5000` the blocks cover
  the output.
-/
import proofs.«100420_j87522843558077_1_alg».proof.Proof.Gen.KernelIdeal.Frame
import proofs.«100420_j87522843558077_1_alg».proof.Proof.Spec
import proofs.«100420_j87522843558077_1_alg».proof.Proof.LibMatProd
import proofs.«100420_j87522843558077_1_alg».proof.Proof.LibDenseLayer
import Idealize.ShloMosaic.Lib.Pipeline.Value
import Idealize.ShloMosaic.Lib.ValueIdx

noncomputable section

namespace Cert.KernelIdeal.Region3

open Cert.KernelIdeal Idealize.ShloMosaic Idealize.ShloMosaic.ValueIdx Idealize.ShloMosaic.TcCoe Idealize.SL.Sem
open Idealize.ShloMosaic.Pipeline (Dat)
open Cert.Lib.MatProd

/-! ## The body's arithmetic at an entry -/

/-- The contraction record of the body's two products has one contracted axis, -/
theorem D_rank : dot_S5000x128_S128x128_S5000x128_1_0_0_1_n_n.contr.rank = 1 := by decide
/-- of extent 128. -/
theorem D_size : dot_S5000x128_S128x128_S5000x128_1_0_0_1_n_n.contr.size ⟨0, by decide⟩ = 128 := by decide

/-- The payload at `(p, q)`: the first product plus the bias row's entry, plus the second product. -/
theorem pay_apply (v0 v3 : Vec Ideal S5000x128 .f32) (vWl vWr : Vec Ideal S128x128 .f32) (vb : Vec Ideal S1x128 .f32)
    (p : Fin 5000) (q : Fin 128) :
    Gen.k3_pay1 (F := Ideal) v0 v3 vWl vWr vb (ix2 p q)
      = (prod v0 vWl (ix2 p q) + vb (ix2 (0 : Fin 1) q)) + prod v3 vWr (ix2 p q) := by
  unfold Gen.k3_pay1
  simp only [shapeCast_self]
  refine (addf_apply _ _ _).trans ?_
  refine congrArg₂ (· + ·) ?_ ?_
  · exact Cert.Lib.DenseLayer.layer_apply dot_S5000x128_S128x128_S5000x128_1_0_0_1_n_n D_rank D_size
      (fun _ _ => rfl) (fun _ _ => rfl) (fun _ _ => rfl) (fun _ _ => rfl)
      (truncf FTy.bf16 v0 Gen.bitsLt_bf16_f32) (truncf FTy.bf16 vWl Gen.bitsLt_bf16_f32) vb Gen.broadcasts_S1x128_S5000x128 p q
  · exact congrFun (matmul_zero_eq_prod dot_S5000x128_S128x128_S5000x128_1_0_0_1_n_n D_rank D_size
      (fun _ _ => rfl) (fun _ _ => rfl) (fun _ _ => rfl) (fun _ _ => rfl) none
      (truncf FTy.bf16 v3 Gen.bitsLt_bf16_f32) (truncf FTy.bf16 vWr Gen.bitsLt_bf16_f32)) (ix2 p q)

/-- One entry of the payload over blocks that hold rows `T * 5000 …` of the two row arrays and the whole of the
    three small ones is the layer's entry in row `T * 5000 + p`. -/
theorem point_eq (A X : Cert.Sage.Mat 50000 128) (WlT WrT : Cert.Sage.Mat 128 128) (B : Vec Ideal S1x128 .f32)
    (x0 x1 : Vec Ideal S5000x128 .f32) (x2 x4 : Vec Ideal S128x128 .f32) (x3 : Vec Ideal S1x128 .f32)
    (T : ℕ) (p : Fin 5000) (q : Fin 128) (h : T * 5000 + p.val < 50000)
    (h0 : ∀ k : Fin 128, x0 (ix2 p k) = A (ix2 ⟨T * 5000 + p.val, h⟩ k))
    (h1 : ∀ k : Fin 128, x1 (ix2 p k) = X (ix2 ⟨T * 5000 + p.val, h⟩ k))
    (h2 : ∀ k : Fin 128, x2 (ix2 k q) = WlT (ix2 k q))
    (h4 : ∀ k : Fin 128, x4 (ix2 k q) = WrT (ix2 k q))
    (h3 : x3 (ix2 (0 : Fin 1) q) = B (ix2 (0 : Fin 1) q)) :
    Gen.k3_pay1 (F := Ideal) x0 x1 x2 x4 x3 (ix2 p q)
      = Cert.Sage.dense A X WlT WrT (fun j => B (ix2 0 (j 0))) (ix2 ⟨T * 5000 + p.val, h⟩ q) := by
  rw [pay_apply, Cert.Sage.dense_apply, prod_rows A WlT x0 x2 T p q h h0 h2, prod_rows X WrT x1 x4 T p q h h1 h4, h3]

/-! ## From blocks to the array -/

theorem hz : (![0, 0] : Fin 2 → Nat) = fun _ => 0 := funext fun a => by fin_cases a <;> rfl

/-- The index maps over the grid: the two row arrays and the output are at block `(t, 0)`, the three small arrays at
    block `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b))

/-- Window 0's block at point `t` holds rows `5000 t …` of its array. -/
theorem read0 (c : Dev nD) (t : Fin cfg3.N) (p : Fin 5000) (k : Fin 128) (h : t.val * 5000 + p.val < 50000) :
    Gen.iblk3 V c 0 t (ix2 p k) = V c main_v91 (ix2 ⟨t.val * 5000 + p.val, h⟩ k) := by
  obtain ⟨e0, e1, -⟩ := idx_facts t
  show V c main_v91 (((cfg3.win 0).blk t).view.emb (ix2 p k)) = _
  refine congrArg (V c main_v91) (funext fun a => Fin.ext ?_)
  match a with
  | ⟨0, _⟩ => show win3_0.index t (0 : Fin 2) * 5000 + 1 * p.val = t.val * 5000 + p.val; rw [e0]; omega
  | ⟨1, _⟩ => show win3_0.index t (1 : Fin 2) * 128 + 1 * k.val = k.val; rw [e1]; omega

/-- Window 1's block at point `t` holds rows `5000 t …` of its array. -/
theorem read1 (c : Dev nD) (t : Fin cfg3.N) (p : Fin 5000) (k : Fin 128) (h : t.val * 5000 + p.val < 50000) :
    Gen.iblk3 V c 1 t (ix2 p k) = V c main_v72 (ix2 ⟨t.val * 5000 + p.val, h⟩ k) := by
  obtain ⟨-, -, e0, e1, -⟩ := idx_facts t
  show V c main_v72 (((cfg3.win 1).blk t).view.emb (ix2 p k)) = _
  refine congrArg (V c main_v72) (funext fun a => Fin.ext ?_)
  match a with
  | ⟨0, _⟩ => show win3_1.index t (0 : Fin 2) * 5000 + 1 * p.val = t.val * 5000 + p.val; rw [e0]; omega
  | ⟨1, _⟩ => show win3_1.index t (1 : Fin 2) * 128 + 1 * k.val = k.val; rw [e1]; omega

/-- Window 2's block is its whole array at every point. -/
theorem read2 (c : Dev nD) (t : Fin cfg3.N) (k q : Fin 128) :
    Gen.iblk3 V c 2 t (ix2 k q) = V c main_v92 (ix2 k q) := by
  obtain ⟨-, -, -, -, e0, e1, -⟩ := idx_facts t
  show V c main_v92 (((cfg3.win 2).blk t).view.emb (ix2 k q)) = _
  refine congrArg (V c main_v92) (funext fun a => Fin.ext ?_)
  match a with
  | ⟨0, _⟩ => show win3_2.index t (0 : Fin 2) * 128 + 1 * k.val = k.val; rw [e0]; omega
  | ⟨1, _⟩ => show win3_2.index t (1 : Fin 2) * 128 + 1 * q.val = q.val; rw [e1]; omega

/-- Window 3's block is its whole one-row array at every point. -/
theorem read3 (c : Dev nD) (t : Fin cfg3.N) (q : Fin 128) :
    Gen.iblk3 V c 3 t (ix2 (0 : Fin 1) q) = V c main_v94 (ix2 (0 : Fin 1) q) := by
  obtain ⟨-, -, -, -, -, -, e0, e1, -⟩ := idx_facts t
  show V c main_v94 (((cfg3.win 3).blk t).view.emb (ix2 (0 : Fin 1) q)) = _
  refine congrArg (V c main_v94) (funext fun a => Fin.ext ?_)
  match a with
  | ⟨0, _⟩ => show win3_3.index t (0 : Fin 2) * 1 + 1 * 0 = 0; rw [e0]
  | ⟨1, _⟩ => show win3_3.index t (1 : Fin 2) * 128 + 1 * q.val = q.val; rw [e1]; omega

/-- Window 4's block is its whole array at every point. -/
theorem read4 (c : Dev nD) (t : Fin cfg3.N) (k q : Fin 128) :
    Gen.iblk3 V c 4 t (ix2 k q) = V c main_v93 (ix2 k q) := by
  obtain ⟨-, -, -, -, -, -, -, -, e0, e1, -⟩ := idx_facts t
  show V c main_v93 (((cfg3.win 4).blk t).view.emb (ix2 k q)) = _
  refine congrArg (V c main_v93) (funext fun a => Fin.ext ?_)
  match a with
  | ⟨0, _⟩ => show win3_4.index t (0 : Fin 2) * 128 + 1 * k.val = k.val; rw [e0]; omega
  | ⟨1, _⟩ => show win3_4.index t (1 : Fin 2) * 128 + 1 * q.val = q.val; rw [e1]; omega

/-- What the region's output array ends holding. -/
abbrev target (c : Dev nD) : Cert.Sage.Mat 50000 128 :=
  Cert.Sage.dense (V c main_v91) (V c main_v72) (V c main_v92) (V c main_v93) (fun j => V c main_v94 (ix2 0 (j 0)))

/-- What point `t` writes back is block `t` of the layer of the arrays as the region finds them. -/
theorem flushed_eq (c : Dev nD) (t : Fin cfg3.N) :
    (Gen.dat3 (F := Ideal) V c).flushed 5 t = ((cfg3.win 5).blk t).view.read (Elt Ideal) (target V c) := by
  show (cfg3.win 5).cut (grid3.coords t) ((Gen.dat3 V c).after 5 t) = _
  rw [Gen.after3_5]
  unfold Gen.out3_5
  rw [View.canon_unit_zero hz]
  simp only [View.ld_unit_zero (S := S5000x128) hz, View.ld_unit_zero (S := S128x128) hz, View.ld_unit_zero (S := S1x128) hz]
  funext j
  obtain ⟨-, -, -, -, -, -, -, -, -, -, e50, e51⟩ := idx_facts t
  have ht : t.val < 10 := t.isLt
  have hp : (j 0).val < 5000 := (j 0).isLt
  have hq : (j 1).val < 128 := (j 1).isLt
  have hrow : t.val * 5000 + (j 0).val < 50000 := by omega
  have hL : (cfg3.win 5).xinj (grid3.coords t) j = ix2 (⟨(j 0).val, hp⟩ : Fin 5000) (⟨(j 1).val, hq⟩ : Fin 128) :=
    funext fun a => match a with | ⟨0, _⟩ => rfl | ⟨1, _⟩ => rfl
  have hR : ((cfg3.win 5).blk t).view.emb j = ix2 (⟨t.val * 5000 + (j 0).val, hrow⟩ : Fin 50000) (⟨(j 1).val, hq⟩ : Fin 128) :=
    funext fun a => Fin.ext (by
      match a with
      | ⟨0, _⟩ => show win3_5.index t (0 : Fin 2) * 5000 + 1 * (j 0).val = t.val * 5000 + (j 0).val; rw [e50]; omega
      | ⟨1, _⟩ => show win3_5.index t (1 : Fin 2) * 128 + 1 * (j 1).val = (j 1).val; rw [e51]; omega)
  show Gen.k3_pay1 (Gen.iblk3 V c 0 t) (Gen.iblk3 V c 1 t) (Gen.iblk3 V c 2 t) (Gen.iblk3 V c 4 t) (Gen.iblk3 V c 3 t) ((cfg3.win 5).xinj (grid3.coords t) j)
    = target V c (((cfg3.win 5).blk t).view.emb j)
  rw [hL, hR]
  exact point_eq (V c main_v91) (V c main_v72) (V c main_v92) (V c main_v93) (V c main_v94)
    (Gen.iblk3 V c 0 t) (Gen.iblk3 V c 1 t) (Gen.iblk3 V c 2 t) (Gen.iblk3 V c 4 t) (Gen.iblk3 V c 3 t)
    t.val ⟨(j 0).val, hp⟩ ⟨(j 1).val, hq⟩ hrow
    (fun k => read0 V c t ⟨(j 0).val, hp⟩ k hrow) (fun k => read1 V c t ⟨(j 0).val, hp⟩ k hrow)
    (fun k => read2 V c t k ⟨(j 1).val, hq⟩) (fun k => read4 V c t k ⟨(j 1).val, hq⟩) (read3 V c t ⟨(j 1).val, hq⟩)

/-- An index of the array is in point `t`'s block iff each coordinate is in the block's range on its axis. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v95).slice (win3_5.rect t)).set ↔ _
  rw [View.set_slice_whole, Rect.mem_set_unit]
  exact Iff.rfl

/-- Row `r` of the array is in the block of point `r / 5000`. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have ht : (i 0).val / 5000 < 10 := by omega
  refine ⟨⟨(i 0).val / 5000, ht⟩, Gen.flush3_5 _, ?_⟩
  obtain ⟨-, -, -, -, -, -, -, -, -, -, e0, e1⟩ := idx_facts ⟨(i 0).val / 5000, ht⟩
  rw [mem_blk]
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_5.index ⟨(i 0).val / 5000, ht⟩ (1 : Fin 2) * 128 ≤ (i 1).val ∧ (i 1).val < win3_5.index ⟨(i 0).val / 5000, ht⟩ (1 : Fin 2) * 128 + 128
    rw [e1]; omega

/-- The region's output array after the run is the layer of the arrays as the region finds them. -/
theorem arr (c : Dev nD) :
    (Gen.dat3 (F := Ideal) V c).arrAt 5 cfg3.N
      = Cert.Sage.dense (V c main_v91) (V c main_v72) (V c main_v92) (V c main_v93) (fun j => V c main_v94 (ix2 0 (j 0))) :=
  (Gen.dat3 (F := Ideal) V c).arrAt_eq_of_cover 5 (target V c) (fun t _ => flushed_eq V c t) cover

end Cert.KernelIdeal.Region3

end
-- ==== Proof.RefValue.lean ====
/-
  The reference program's result is the four stacked layers.

  The reference computes one layer as two whole-array products on the host: the mean over incoming edges times the
  transposed left weight, plus the bias vector repeated over the rows, plus the node features times the transposed
  right weight. `refL` is that term, with the averaging and the transposition kept as the shared host operations.
  Read at an entry `(p, q)` it is `(Σ_k mean(p,k) · Wlᵀ(k,q) + bl(q)) + Σ_k h(p,k) · Wrᵀ(k,q)`, which is the
  specification's layer; the maximum with the zero array is the rectifier. The whole result is four of these terms
  nested, the rectifier after the first.
-/
import proofs.«100420_j87522843558077_1_alg».proof.Proof.Spec
import proofs.«100420_j87522843558077_1_alg».proof.Proof.LibMatProd
import proofs.«100420_j87522843558077_1_alg».proof.Proof.LibDenseLayer
import proofs.«100420_j87522843558077_1_alg».proof.Proof.Gen.ReferenceIdeal.Run

noncomputable section

namespace Cert.ReferenceIdeal.SageRef

open Idealize.ShloMosaic Idealize.ShloMosaic.ValueIdx Cert.Lib.MatProd
open Cert.ReferenceIdeal Cert.ReferenceIdeal.Gen Idealize.ShloMosaic.TcCoe Idealize.SL.Sem Idealize.ShloMosaic.StableHlo

/-- One layer as the reference computes it: two host products of whole arrays, the bias vector placed as a row and
    repeated over the rows. -/
def refL (h : FVec Ideal S50000x128 .f32) (e : IVec S2x800000 32)
    (Wl : FVec Ideal S128x128 .f32) (bl : FVec Ideal S128 .f32) (Wr : FVec Ideal S128x128 .f32) :
    FVec Ideal S50000x128 .f32 :=
  addf
    (addf
      (Host.dotGeneral dot_S50000x128_S128x128_S50000x128_1_0_0_1_n_n none
        (Cert.Sage.meanFrom h (Cert.Sage.srcOf e) (Cert.Sage.dstOf e)) (Cert.Sage.tr Wl))
      (broadcastInDim S50000x128 ![0, 1] bcast_S1x128_S50000x128_0_1 (broadcastInDim S1x128 ![1] bcast_S128_S1x128_1 bl)))
    (Host.dotGeneral dot_S50000x128_S128x128_S50000x128_1_0_0_1_n_n none h (Cert.Sage.tr Wr))

/-- The rectifier as the reference computes it: the maximum with the zero array. -/
def refRelu (Z : FVec Ideal S50000x128 .f32) : FVec Ideal S50000x128 .f32 :=
  maximumf Z (broadcastInDim S50000x128 ![] bcast_S_S50000x128 (constant S_ .f32 0x00000000#32))

/-- The reference's product of `[50000, 128]` by `[128, 128]` is rows times columns. -/
theorem dot_eq_prod (l : FVec Ideal S50000x128 .f32) (r : FVec Ideal S128x128 .f32) :
    Host.dotGeneral dot_S50000x128_S128x128_S50000x128_1_0_0_1_n_n none l r = prod (M := 50000) (K := 128) (N := 128) l r :=
  dotGeneral_eq_prod (M := 50000) (K := 128) (N := 128) dot_S50000x128_S128x128_S50000x128_1_0_0_1_n_n
    (by decide) (by decide) (fun _ _ => rfl) (fun _ _ => rfl) (fun _ _ => rfl) (fun _ _ => rfl) none l r

/-- The reference's layer is the specification's layer. -/
theorem refL_eq (h : FVec Ideal S50000x128 .f32) (e : IVec S2x800000 32)
    (Wl : FVec Ideal S128x128 .f32) (bl : FVec Ideal S128 .f32) (Wr : FVec Ideal S128x128 .f32) :
    refL h e Wl bl Wr = Cert.Sage.layer h (Cert.Sage.srcOf e) (Cert.Sage.dstOf e) Wl bl Wr := by
  funext j
  obtain ⟨p, q, rfl⟩ : ∃ (p : Fin 50000) (q : Fin 128), j = ix2 p q := ⟨j 0, j 1, eq_ix2 j⟩
  unfold refL Cert.Sage.layer
  rw [addf_apply, addf_apply, dot_eq_prod, dot_eq_prod, Cert.Sage.dense_apply]
  rw [Cert.Lib.DenseLayer.bias_apply (M := 50000) (N := 128) (by decide) bl bcast_S128_S1x128_1 bcast_S1x128_S50000x128_0_1 p q]

/-- The reference's maximum with the zero array is the specification's rectifier. -/
theorem refRelu_eq (Z : FVec Ideal S50000x128 .f32) : refRelu Z = Cert.Sage.relu (M := 50000) Z := by
  funext j
  unfold refRelu
  rw [maximumf_apply, Cert.Sage.relu_apply]
  rfl

/-- The reference's result is four reference layers nested, the rectifier after the first. -/
theorem res_nested (m : (ℓ : Loc nD τ sig) → Buf (Elt Ideal) ℓ) (c : Dev nD) :
    Cert.ReferenceIdeal.Value.res_main_v124 (F := Ideal) m c
      = refL (refL (refL (refRelu (refL (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))))
          (m ((c.tc : Thread nD τ).loc main_arg1))
          (m ((c.tc : Thread nD τ).loc main_arg5)) (m ((c.tc : Thread nD τ).loc main_arg6)) (m ((c.tc : Thread nD τ).loc main_arg7)))
          (m ((c.tc : Thread nD τ).loc main_arg1))
          (m ((c.tc : Thread nD τ).loc main_arg8)) (m ((c.tc : Thread nD τ).loc main_arg9)) (m ((c.tc : Thread nD τ).loc main_arg10)))
          (m ((c.tc : Thread nD τ).loc main_arg1))
          (m ((c.tc : Thread nD τ).loc main_arg11)) (m ((c.tc : Thread nD τ).loc main_arg12)) (m ((c.tc : Thread nD τ).loc main_arg13)) := by
  unfold Cert.ReferenceIdeal.Value.res_main_v124
  rfl

/-- The reference's result is the specification `Cert.Sage.G` of the fourteen arguments. -/
theorem res_eq (m : (ℓ : Loc nD τ sig) → Buf (Elt Ideal) ℓ) (c : Dev nD) :
    Cert.ReferenceIdeal.Value.res_main_v124 (F := Ideal) m c
      = Cert.Sage.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) := by
  rw [res_nested m c, refL_eq, refRelu_eq, refL_eq, refL_eq, refL_eq]
  rfl

end Cert.ReferenceIdeal.SageRef

end
-- ==== Proof.lean ====
/-
  Four stacked graph layers over 50000 nodes and 800000 edges: the Pallas kernel against its jnp reference, over the
  extended reals.

  Both programs average each node's incoming neighbours with the same host operations (a gather of the source rows, a
  scatter-add per destination, a division by the number of incoming edges or by one), and both then compute, per layer,
  `(mean · Wlᵀ + bl) + h · Wrᵀ`, the first layer followed by a rectifier. The kernel computes the dense part in a
  Pallas region, ten blocks of 5000 rows at a time, with its operands rounded to bf16 (the identity at the ideal
  values) and the bias as a one-row array; the reference computes it with two whole-array products and a broadcast
  bias. A block of rows of a matrix product is the rows of the product, the two sums are grouped alike in both
  programs, so the two results are one function of the fourteen argument arrays (`Cert.Sage.G`) with no law of the
  extended reals needed beyond reading the operations entry by entry: finiteness of the inputs is never used.

  The kernel's run is the generated frame's, stated for every buffer's final contents (`KernelRun`); the contents are
  walked through the eight segments of @main in `Fold`, over the stretches' results (`Stretch`) and each region's
  output array (`Region0` … `Region3`). The reference's run is the generated one, its result term read as the same
  four layers (`RefValue`). The frames of the two kernel programs are the generated ones; the reference's frame is its
  run with the result dropped. Nothing was rewritten by the idealization, so `preserves` is trivial.
-/
import proofs.«100420_j87522843558077_1_alg».proof.Defs
import proofs.«100420_j87522843558077_1_alg».proof.Proof.Gen.Kernel
import proofs.«100420_j87522843558077_1_alg».proof.Proof.Gen.Kernel.Skeleton
import proofs.«100420_j87522843558077_1_alg».proof.Proof.Gen.Kernel.Launch
import proofs.«100420_j87522843558077_1_alg».proof.Proof.Gen.Kernel.Points
import proofs.«100420_j87522843558077_1_alg».proof.Proof.Gen.Kernel.Frame
import proofs.«100420_j87522843558077_1_alg».proof.Proof.Gen.KernelIdeal
import proofs.«100420_j87522843558077_1_alg».proof.Proof.Gen.KernelIdeal.Skeleton
import proofs.«100420_j87522843558077_1_alg».proof.Proof.Gen.KernelIdeal.Launch
import proofs.«100420_j87522843558077_1_alg».proof.Proof.Gen.KernelIdeal.Points
import proofs.«100420_j87522843558077_1_alg».proof.Proof.Gen.KernelIdeal.Frame
import proofs.«100420_j87522843558077_1_alg».proof.Proof.Gen.ReferenceIdeal
import proofs.«100420_j87522843558077_1_alg».proof.Proof.Gen.Pre_finite_inputs
import proofs.«100420_j87522843558077_1_alg».proof.Proof.Gen.ReferenceIdeal.Run
import proofs.«100420_j87522843558077_1_alg».proof.Proof.KernelRun
import proofs.«100420_j87522843558077_1_alg».proof.Proof.Fold
import proofs.«100420_j87522843558077_1_alg».proof.Proof.Region0
import proofs.«100420_j87522843558077_1_alg».proof.Proof.Region1
import proofs.«100420_j87522843558077_1_alg».proof.Proof.Region2
import proofs.«100420_j87522843558077_1_alg».proof.Proof.Region3
import proofs.«100420_j87522843558077_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel's run with its result named: the result array ends at the four stacked layers of the argument
    arrays, and the arguments end as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v95)
          = Cert.Sage.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run Cert.KernelIdeal.defs _ _).mono (fun r h c =>
    ⟨(Cert.KernelIdeal.SageRun.mem_eq_W8 m ρ h c Cert.KernelIdeal.main_v95 (by decide)).trans
        (Cert.KernelIdeal.SageFold.result m ρ c Cert.KernelIdeal.Region0.arr Cert.KernelIdeal.Region1.arr
          Cert.KernelIdeal.Region2.arr Cert.KernelIdeal.Region3.arr),
     (Cert.KernelIdeal.SageRun.mem_eq_W8 m ρ h c Cert.KernelIdeal.main_arg0 (by decide)).trans (Cert.KernelIdeal.Gen.W8_main_arg0 m ρ c),
     (Cert.KernelIdeal.SageRun.mem_eq_W8 m ρ h c Cert.KernelIdeal.main_arg1 (by decide)).trans (Cert.KernelIdeal.Gen.W8_main_arg1 m ρ c),
     (Cert.KernelIdeal.SageRun.mem_eq_W8 m ρ h c Cert.KernelIdeal.main_arg2 (by decide)).trans (Cert.KernelIdeal.Gen.W8_main_arg2 m ρ c),
     (Cert.KernelIdeal.SageRun.mem_eq_W8 m ρ h c Cert.KernelIdeal.main_arg3 (by decide)).trans (Cert.KernelIdeal.Gen.W8_main_arg3 m ρ c),
     (Cert.KernelIdeal.SageRun.mem_eq_W8 m ρ h c Cert.KernelIdeal.main_arg4 (by decide)).trans (Cert.KernelIdeal.Gen.W8_main_arg4 m ρ c),
     (Cert.KernelIdeal.SageRun.mem_eq_W8 m ρ h c Cert.KernelIdeal.main_arg5 (by decide)).trans (Cert.KernelIdeal.Gen.W8_main_arg5 m ρ c),
     (Cert.KernelIdeal.SageRun.mem_eq_W8 m ρ h c Cert.KernelIdeal.main_arg6 (by decide)).trans (Cert.KernelIdeal.Gen.W8_main_arg6 m ρ c),
     (Cert.KernelIdeal.SageRun.mem_eq_W8 m ρ h c Cert.KernelIdeal.main_arg7 (by decide)).trans (Cert.KernelIdeal.Gen.W8_main_arg7 m ρ c),
     (Cert.KernelIdeal.SageRun.mem_eq_W8 m ρ h c Cert.KernelIdeal.main_arg8 (by decide)).trans (Cert.KernelIdeal.Gen.W8_main_arg8 m ρ c),
     (Cert.KernelIdeal.SageRun.mem_eq_W8 m ρ h c Cert.KernelIdeal.main_arg9 (by decide)).trans (Cert.KernelIdeal.Gen.W8_main_arg9 m ρ c),
     (Cert.KernelIdeal.SageRun.mem_eq_W8 m ρ h c Cert.KernelIdeal.main_arg10 (by decide)).trans (Cert.KernelIdeal.Gen.W8_main_arg10 m ρ c),
     (Cert.KernelIdeal.SageRun.mem_eq_W8 m ρ h c Cert.KernelIdeal.main_arg11 (by decide)).trans (Cert.KernelIdeal.Gen.W8_main_arg11 m ρ c),
     (Cert.KernelIdeal.SageRun.mem_eq_W8 m ρ h c Cert.KernelIdeal.main_arg12 (by decide)).trans (Cert.KernelIdeal.Gen.W8_main_arg12 m ρ c),
     (Cert.KernelIdeal.SageRun.mem_eq_W8 m ρ h c Cert.KernelIdeal.main_arg13 (by decide)).trans (Cert.KernelIdeal.Gen.W8_main_arg13 m ρ c)⟩)
    (Cert.KernelIdeal.SageRun.run_all (F := Ideal) m ρ)

/-- From memories agreeing on the arguments both idealized programs end with the four stacked layers of the same
    arrays in their result. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.SageRef.res_eq m' c]
  obtain ⟨h0, h1, h2, h3, h4, h5, h6, h7, h8, h9, h10, h11, h12, h13⟩ := hagree c
  rw [h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
